-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S256x256 .f32) (main_arg9 : FVec F S256 .f32) (main_arg10 : FVec F S256x1 .f32) (main_arg11 : FVec F S1 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg10
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S256x256 .f32) (main_arg9 : FVec F S256 .f32) (main_arg10 : FVec F S256x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S256x256 .f32) (main_arg9 : FVec F S256 .f32) (main_arg10 : FVec F S256x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S2000x128 : Shape := ⟨2, ![2000, 128]⟩
abbrev S1x128 : Shape := ⟨2, ![1, 128]⟩
abbrev S128x256 : Shape := ⟨2, ![128, 256]⟩
abbrev S6400x128 : Shape := ⟨2, ![6400, 128]⟩
abbrev S6400x1 : Shape := ⟨2, ![6400, 1]⟩
abbrev S6400x256 : Shape := ⟨2, ![6400, 256]⟩
abbrev S1x256 : Shape := ⟨2, ![1, 256]⟩
abbrev S6400 : Shape := ⟨1, ![6400]⟩
abbrev S1x1 : Shape := ⟨2, ![1, 1]⟩

abbrev nBuf : Space → Nat
  | .hbm => 96
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x128, .bf16⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .bf16⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S50000x128, .bf16⟩
  | .hbm, ⟨47, _⟩ => ⟨S128x128, .bf16⟩
  | .hbm, ⟨48, _⟩ => ⟨S128x128, .bf16⟩
  | .hbm, ⟨49, _⟩ => ⟨S50000x128, .bf16⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .bf16⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S50000x128, .bf16⟩
  | .hbm, ⟨68, _⟩ => ⟨S128x128, .bf16⟩
  | .hbm, ⟨69, _⟩ => ⟨S128x128, .bf16⟩
  | .hbm, ⟨70, _⟩ => ⟨S50000x128, .bf16⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .bf16⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .bf16⟩
  | .hbm, ⟨89, _⟩ => ⟨S128x256, .f32⟩
  | .hbm, ⟨90, _⟩ => ⟨S128x256, .f32⟩
  | .hbm, ⟨91, _⟩ => ⟨S128x256, .bf16⟩
  | .hbm, ⟨92, _⟩ => ⟨S128x256, .bf16⟩
  | .hbm, ⟨93, _⟩ => ⟨S256, .f32⟩
  | .hbm, ⟨94, _⟩ => ⟨S800000x1, .f32⟩
  | .hbm, ⟨95, _⟩ => ⟨S800000, .f32⟩
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S2000x128, .bf16⟩
  | .local _ .vmem, ⟨8, _⟩ => ⟨S2000x128, .bf16⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S2000x128, .bf16⟩
  | .local _ .vmem, ⟨13, _⟩ => ⟨S128x128, .bf16⟩
  | .local _ .vmem, ⟨14, _⟩ => ⟨S128, .f32⟩
  | .local _ .vmem, ⟨15, _⟩ => ⟨S128x128, .bf16⟩
  | .local _ .vmem, ⟨16, _⟩ => ⟨S2000x128, .bf16⟩
  | .local _ .vmem, ⟨17, _⟩ => ⟨S2000x128, .bf16⟩
  | .local _ .vmem, ⟨18, _⟩ => ⟨S6400x128, .bf16⟩
  | .local _ .vmem, ⟨19, _⟩ => ⟨S6400x128, .bf16⟩
  | .local _ .vmem, ⟨20, _⟩ => ⟨S6400x128, .bf16⟩
  | .local _ .vmem, ⟨21, _⟩ => ⟨S6400x128, .bf16⟩
  | .local _ .vmem, ⟨22, _⟩ => ⟨S128x256, .bf16⟩
  | .local _ .vmem, ⟨23, _⟩ => ⟨S128x256, .bf16⟩
  | .local _ .vmem, ⟨24, _⟩ => ⟨S256, .f32⟩
  | .local _ .vmem, ⟨25, _⟩ => ⟨S256, .f32⟩
  | .local _ .vmem, ⟨26, _⟩ => ⟨S1, .f32⟩
  | .local _ .vmem, ⟨27, _⟩ => ⟨S6400x1, .f32⟩
  | .local _ .vmem, ⟨28, _⟩ => ⟨S6400x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S6400x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bitsLt_bf16_f32 : FTy.bits .bf16 < FTy.bits .f32
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  slices_S256x256_S128x256_0_0 : S256x256.Slices ![0, 0] S128x256
  slices_S256x256_S128x256_128_0 : S256x256.Slices ![128, 0] S128x256
  shapeCasts_S256x1_S256 : S256x1.ShapeCasts S256
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S6400x256 : S1x256.Broadcasts S6400x256
  shapeCasts_S256_S256 : S256.ShapeCasts S256
  reduces_S6400x256_S6400 : S6400x256.Reduces [1] S6400
  shapeCasts_S6400_S6400x1 : S6400.ShapeCasts S6400x1
  inb_S1_S1_0 : ∀ a, (![0] : Fin 1 → Nat) a + S1.size a ≤ S1.size a
  h_S1 : 0 < S1.numel
  shapeCasts_S1_S1x1 : S1.ShapeCasts S1x1
  broadcasts_S1x1_S6400x1 : S1x1.Broadcasts S6400x1
  inb_S6400x1_S6400x1_0_0 : ∀ a, (![0, 0] : Fin 2 → Nat) a + S6400x1.size a ≤ S6400x1.size a
  h_S6400x1 : 0 < S6400x1.numel
  shapeCasts_S800000x1_S800000 : S800000x1.ShapeCasts S800000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S6400x128_S128x256_S6400x256_1_0_0_1_n_n_wf : DotDims.WF S6400x128 S128x256 S6400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .bf16 = 32 ∨ (Rect.block (s := S50000x128) S2000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .bf16 = 32 ∨ (Rect.block (s := S50000x128) S2000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .bf16 = 32 ∨ (Rect.block (s := S50000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x128.size a ≤ S800000x128.size a
  hwx2_0 : ∀ i : grid2.Coords, EltTy.bits .bf16 = 32 ∨ (Rect.block (s := S800000x128) S6400x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x128.size a ≤ S800000x128.size a
  hwx2_1 : ∀ i : grid2.Coords, EltTy.bits .bf16 = 32 ∨ (Rect.block (s := S800000x128) S6400x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .bf16 = 32 ∨ (Rect.block (s := S128x256) S128x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .bf16 = 32 ∨ (Rect.block (s := S128x256) S128x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1.size a ≤ S1.size a
  hwx2_6 : ∀ i : grid2.Coords, EltTy.bits .f32 = 32 ∨ (Rect.block (s := S1) S1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S6400x1.size a ≤ S800000x1.size a
  hwx2_7 : ∀ i : grid2.Coords, EltTy.bits .f32 = 32 ∨ (Rect.block (s := S800000x1) S6400x1.size (cc2_transform_7 i) (hinb2_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S6400x128_S128x256_S6400x256_1_0_0_1_n_n : DotDims S6400x128 S128x256 S6400x256 where
  lhsContracting := [1]
  rhsContracting := [0]
  lhsNonContracting := [0]
  rhsNonContracting := [1]
  lhsBatch := []
  rhsBatch := []
  wf := dot_S6400x128_S128x256_S6400x256_1_0_0_1_n_n_wf

abbrev win0_0 : Pipeline.Window sig grid0 :=
  Pipeline.Window.ofSpec (Memref.whole main_v27) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S6400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S6400x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v68) S6400x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S800000x256 : Shape := ⟨2, ![800000, 256]⟩
abbrev S1x256 : Shape := ⟨2, ![1, 256]⟩
abbrev S1x1 : Shape := ⟨2, ![1, 1]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S_, .i32⟩
  | .hbm, ⟨94, _⟩ => ⟨S800000, .i32⟩
  | .hbm, ⟨95, _⟩ => ⟨S800000, .i1⟩
  | .hbm, ⟨96, _⟩ => ⟨S_, .i32⟩
  | .hbm, ⟨97, _⟩ => ⟨S800000, .i32⟩
  | .hbm, ⟨98, _⟩ => ⟨S800000, .i32⟩
  | .hbm, ⟨99, _⟩ => ⟨S800000, .i32⟩
  | .hbm, ⟨100, _⟩ => ⟨S800000x1, .i32⟩
  | .hbm, ⟨101, _⟩ => ⟨S800000x128, .f32⟩
  | .hbm, ⟨102, _⟩ => ⟨S800000x256, .f32⟩
  | .hbm, ⟨103, _⟩ => ⟨S800000x256, .f32⟩
  | .hbm, ⟨104, _⟩ => ⟨S1x256, .f32⟩
  | .hbm, ⟨105, _⟩ => ⟨S800000x256, .f32⟩
  | .hbm, ⟨106, _⟩ => ⟨S800000x256, .f32⟩
  | .hbm, ⟨107, _⟩ => ⟨S_, .f32⟩
  | .hbm, ⟨108, _⟩ => ⟨S800000x256, .f32⟩
  | .hbm, ⟨109, _⟩ => ⟨S800000x256, .f32⟩
  | .hbm, ⟨110, _⟩ => ⟨S800000x1, .f32⟩
  | .hbm, ⟨111, _⟩ => ⟨S1x1, .f32⟩
  | .hbm, ⟨112, _⟩ => ⟨S800000x1, .f32⟩
  | .hbm, ⟨113, _⟩ => ⟨S800000x1, .f32⟩
  | .hbm, ⟨114, _⟩ => ⟨S800000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_12 : Ref sig .tc := ⟨.hbm, 93, rfl⟩
abbrev main_v63 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call2_cst : Ref sig .tc := ⟨.hbm, 107, rfl⟩
abbrev main_call2_v0 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S800000x128_S800000x128_S800000x256_d1 : Shape.Concatenates [S800000x128, S800000x128] S800000x256 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S800000x256_S256x256_S800000x256_1_0_0_1_n_n_wf : DotDims.WF S800000x256 S256x256 S800000x256 [1] [0] [0] [1] [] []
  dot_S800000x256_S256x1_S800000x1_1_0_0_1_n_n_wf : DotDims.WF S800000x256 S256x1 S800000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf

class Facts : Prop extends Facts₀ where

variable [Facts]
-- ==== Proof.KRun.lean ====
/-
  The kernel program's run with its result named.  Every weakly fair execution of the three-region program from any
  launch memory terminates without a fault; each unscoped buffer then holds the last boundary's contents, the fold of
  the host stretches and of the regions' write-backs through the program.  Read at the result buffer this gives the
  result array; read at the argument buffers it gives them back unchanged.
-/
import proofs.«130986_j28862180229417_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_main : θ_run defs (onTc (τ := τ) (main (F := F))) ⟨m, fun _ => 0, ρ⟩ (fun r => ∀ c : Dev nD,
      r.2.mem ((c.tc : Thread nD τ).loc main_v69) = W7 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v69 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.KRun

end
-- ==== Proof.KHost.lean ====
/-
  The host stretches of the kernel program, read one stretch at a time.

  Between the regions the program only re-lays and combines arrays: it splits the edge list into its source and
  destination rows, wraps negative indices, counts the edges into each node (a segment sum of ones), takes the
  reciprocal of max(count, 1), gathers node rows by source, sums them into their destinations and scales each row by
  that reciprocal; it narrows the weights; it slices the scorer's weight matrix into its two halves.  Each stretch is
  read here as a function of the buffer contents it starts from, whatever those are.
-/
import proofs.«130986_j28862180229417_2_alg».proof.Proof.Gen.KernelIdeal.Frame
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.StableHlo Idealize.SL.Sem

variable {F : FTy → Type} [FloatOps F]

/-- Row 0 of the edge list: the source node of each edge. -/
def srcOf (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000
/-- Row 1 of the edge list: the destination node of each edge. -/
def dstOf (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- A node-index vector as the index column of a row gather: a negative index has the node count added. -/
def wrapCol (v : (⟨S800000, .i32⟩ : BufTy).Contents (Elt F)) : (⟨S800000x1, .i32⟩ : BufTy).Contents (Elt F) :=
  broadcastInDim S800000x1 ![0] bcast_S800000_S800000x1_0
    (select (cmpi CmpIPredicate.slt v (broadcastInDim S800000 ![] bcast_S_S800000 (constantI S_ 32 0#32)))
      (addi v (broadcastInDim S800000 ![] bcast_S_S800000 (constantI S_ 32 50000#32))) v)

/-- The reciprocal of max(number of edges into the node, 1). -/
def cinvOf (dst : (⟨S800000, .i32⟩ : BufTy).Contents (Elt F)) : (⟨S50000, .f32⟩ : BufTy).Contents (Elt F) :=
  Host.divf (broadcastInDim S50000 ![] bcast_S_S50000 (constant S_ .f32 0x3F800000#32))
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 dst)
        (broadcastInDim S800000 ![] bcast_S_S800000 (constant S_ .f32 0x3F800000#32)))
      (broadcastInDim S50000 ![] bcast_S_S50000 (constant S_ .f32 0x3F800000#32)))

/-- The rows of `feat` gathered by source node and summed into their destination nodes. -/
def aggSum (feat : (⟨S50000x128, .bf16⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (extf .f32 (Host.gather gather_S50000x128_S800000x1_S800000x128_1_0_n_n_0_1_1128 feat (wrapCol src)) bitsLt_bf16_f32)

/-- The mean aggregate: the summed rows, each scaled by its node's reciprocal count. -/
def aggK (feat : (⟨S50000x128, .bf16⟩ : BufTy).Contents (Elt F)) (src dst : (⟨S800000, .i32⟩ : BufTy).Contents (Elt F))
    (cinv : (⟨S50000, .f32⟩ : BufTy).Contents (Elt F)) : (⟨S50000x128, .bf16⟩ : BufTy).Contents (Elt F) :=
  truncf .bf16
    (mulf (aggSum feat src dst)
      (broadcastInDim S50000x128 ![0, 1] bcast_S50000x1_S50000x128_0_1 (broadcastInDim S50000x1 ![0] bcast_S50000_S50000x1_0 cinv)))
    bitsLt_bf16_f32

/-- The rows of the node table taken by an index vector. -/
def rowsBy (feat : (⟨S50000x128, .bf16⟩ : BufTy).Contents (Elt F)) (v : (⟨S800000, .i32⟩ : BufTy).Contents (Elt F)) :
    (⟨S800000x128, .bf16⟩ : BufTy).Contents (Elt F) :=
  Host.gather gather_S50000x128_S800000x1_S800000x128_1_0_n_n_0_1_1128 feat (wrapCol v)

/-- The scorer's weight rows 0..127 and 128..255. -/
def topRows (w : (⟨S256x256, .f32⟩ : BufTy).Contents (Elt F)) : (⟨S128x256, .bf16⟩ : BufTy).Contents (Elt F) :=
  truncf .bf16 (extractStridedSlice S128x256 ![0, 0] w slices_S256x256_S128x256_0_0) bitsLt_bf16_f32
def bottomRows (w : (⟨S256x256, .f32⟩ : BufTy).Contents (Elt F)) : (⟨S128x256, .bf16⟩ : BufTy).Contents (Elt F) :=
  truncf .bf16 (extractStridedSlice S128x256 ![128, 0] w slices_S256x256_S128x256_128_0) bitsLt_bf16_f32
/-- The last weight column as a vector. -/
def colVec (w : (⟨S256x1, .f32⟩ : BufTy).Contents (Elt F)) : (⟨S256, .f32⟩ : BufTy).Contents (Elt F) :=
  shapeCast S256 w shapeCasts_S256x1_S256
/-- The scores as a vector. -/
def flat (p : (⟨S800000x1, .f32⟩ : BufTy).Contents (Elt F)) : (⟨S800000, .f32⟩ : BufTy).Contents (Elt F) :=
  shapeCast S800000 p shapeCasts_S800000x1_S800000

variable (W : Valuation τ sig (Elt F))

/-! ## The first stretch (before the first layer's region) -/

set_option maxHeartbeats 1600000 in
theorem s0_v1 : StableHlo.after hostOps0 W (Proc.devRef .tc main_v1) = srcOf (W (Proc.devRef .tc main_arg1)) := by
  after_results_simp; rfl
set_option maxHeartbeats 1600000 in
theorem s0_v3 : StableHlo.after hostOps0 W (Proc.devRef .tc main_v3) = dstOf (W (Proc.devRef .tc main_arg1)) := by
  after_results_simp; rfl
set_option maxHeartbeats 1600000 in
theorem s0_v11 : StableHlo.after hostOps0 W (Proc.devRef .tc main_v11) = cinvOf (dstOf (W (Proc.devRef .tc main_arg1))) := by
  after_results_simp; rfl
set_option maxHeartbeats 1600000 in
theorem s0_v12 : StableHlo.after hostOps0 W (Proc.devRef .tc main_v12)
    = truncf .bf16 (W (Proc.devRef .tc main_arg0)) bitsLt_bf16_f32 := by
  after_results_simp
set_option maxHeartbeats 1600000 in
theorem s0_v27 : StableHlo.after hostOps0 W (Proc.devRef .tc main_v27)
    = aggK (truncf .bf16 (W (Proc.devRef .tc main_arg0)) bitsLt_bf16_f32) (srcOf (W (Proc.devRef .tc main_arg1)))
        (dstOf (W (Proc.devRef .tc main_arg1))) (cinvOf (dstOf (W (Proc.devRef .tc main_arg1)))) := by
  after_results_simp; rfl
set_option maxHeartbeats 1600000 in
theorem s0_v28 : StableHlo.after hostOps0 W (Proc.devRef .tc main_v28)
    = truncf .bf16 (W (Proc.devRef .tc main_arg2)) bitsLt_bf16_f32 := by
  after_results_simp
set_option maxHeartbeats 1600000 in
theorem s0_v29 : StableHlo.after hostOps0 W (Proc.devRef .tc main_v29)
    = truncf .bf16 (W (Proc.devRef .tc main_arg4)) bitsLt_bf16_f32 := by
  after_results_simp

/-! The first stretch writes none of these arguments. -/
set_option maxHeartbeats 1600000 in
theorem s0_keep_arg3 : StableHlo.after hostOps0 W (Proc.devRef .tc main_arg3) = W (Proc.devRef .tc main_arg3) := by
  after_results_simp
set_option maxHeartbeats 1600000 in
theorem s0_keep_arg5 : StableHlo.after hostOps0 W (Proc.devRef .tc main_arg5) = W (Proc.devRef .tc main_arg5) := by
  after_results_simp
set_option maxHeartbeats 1600000 in
theorem s0_keep_arg6 : StableHlo.after hostOps0 W (Proc.devRef .tc main_arg6) = W (Proc.devRef .tc main_arg6) := by
  after_results_simp
set_option maxHeartbeats 1600000 in
theorem s0_keep_arg7 : StableHlo.after hostOps0 W (Proc.devRef .tc main_arg7) = W (Proc.devRef .tc main_arg7) := by
  after_results_simp
set_option maxHeartbeats 1600000 in
theorem s0_keep_arg8 : StableHlo.after hostOps0 W (Proc.devRef .tc main_arg8) = W (Proc.devRef .tc main_arg8) := by
  after_results_simp
set_option maxHeartbeats 1600000 in
theorem s0_keep_arg9 : StableHlo.after hostOps0 W (Proc.devRef .tc main_arg9) = W (Proc.devRef .tc main_arg9) := by
  after_results_simp
set_option maxHeartbeats 1600000 in
theorem s0_keep_arg10 : StableHlo.after hostOps0 W (Proc.devRef .tc main_arg10) = W (Proc.devRef .tc main_arg10) := by
  after_results_simp
set_option maxHeartbeats 1600000 in
theorem s0_keep_arg11 : StableHlo.after hostOps0 W (Proc.devRef .tc main_arg11) = W (Proc.devRef .tc main_arg11) := by
  after_results_simp

/-! ## The second stretch (between the two layers' regions) -/

set_option maxHeartbeats 1600000 in
theorem s1_v45 : StableHlo.after hostOps1 W (Proc.devRef .tc main_v45)
    = aggK (W (Proc.devRef .tc main_v30)) (W (Proc.devRef .tc main_v1)) (W (Proc.devRef .tc main_v3)) (W (Proc.devRef .tc main_v11)) := by
  after_results_simp; rfl
set_option maxHeartbeats 1600000 in
theorem s1_v46 : StableHlo.after hostOps1 W (Proc.devRef .tc main_v46) = truncf .bf16 (W (Proc.devRef .tc main_arg5)) bitsLt_bf16_f32 := by
  after_results_simp
set_option maxHeartbeats 1600000 in
theorem s1_v47 : StableHlo.after hostOps1 W (Proc.devRef .tc main_v47) = truncf .bf16 (W (Proc.devRef .tc main_arg7)) bitsLt_bf16_f32 := by
  after_results_simp
set_option maxHeartbeats 1600000 in
theorem s1_keep_v30 : StableHlo.after hostOps1 W (Proc.devRef .tc main_v30) = W (Proc.devRef .tc main_v30) := by
  after_results_simp
set_option maxHeartbeats 1600000 in
theorem s1_keep_v1 : StableHlo.after hostOps1 W (Proc.devRef .tc main_v1) = W (Proc.devRef .tc main_v1) := by
  after_results_simp
set_option maxHeartbeats 1600000 in
theorem s1_keep_v3 : StableHlo.after hostOps1 W (Proc.devRef .tc main_v3) = W (Proc.devRef .tc main_v3) := by
  after_results_simp
set_option maxHeartbeats 1600000 in
theorem s1_keep_arg6 : StableHlo.after hostOps1 W (Proc.devRef .tc main_arg6) = W (Proc.devRef .tc main_arg6) := by
  after_results_simp
set_option maxHeartbeats 1600000 in
theorem s1_keep_arg8 : StableHlo.after hostOps1 W (Proc.devRef .tc main_arg8) = W (Proc.devRef .tc main_arg8) := by
  after_results_simp
set_option maxHeartbeats 1600000 in
theorem s1_keep_arg9 : StableHlo.after hostOps1 W (Proc.devRef .tc main_arg9) = W (Proc.devRef .tc main_arg9) := by
  after_results_simp
set_option maxHeartbeats 1600000 in
theorem s1_keep_arg10 : StableHlo.after hostOps1 W (Proc.devRef .tc main_arg10) = W (Proc.devRef .tc main_arg10) := by
  after_results_simp
set_option maxHeartbeats 1600000 in
theorem s1_keep_arg11 : StableHlo.after hostOps1 W (Proc.devRef .tc main_arg11) = W (Proc.devRef .tc main_arg11) := by
  after_results_simp

/-! ## The third stretch (before the scorer's region) -/

set_option maxHeartbeats 1600000 in
theorem s2_v55 : StableHlo.after hostOps2 W (Proc.devRef .tc main_v55) = rowsBy (W (Proc.devRef .tc main_v48)) (W (Proc.devRef .tc main_v1)) := by
  after_results_simp; rfl
set_option maxHeartbeats 1600000 in
theorem s2_v62 : StableHlo.after hostOps2 W (Proc.devRef .tc main_v62) = rowsBy (W (Proc.devRef .tc main_v48)) (W (Proc.devRef .tc main_v3)) := by
  after_results_simp; rfl
set_option maxHeartbeats 1600000 in
theorem s2_v65 : StableHlo.after hostOps2 W (Proc.devRef .tc main_v65) = topRows (W (Proc.devRef .tc main_arg8)) := by
  after_results_simp; rfl
set_option maxHeartbeats 1600000 in
theorem s2_v66 : StableHlo.after hostOps2 W (Proc.devRef .tc main_v66) = bottomRows (W (Proc.devRef .tc main_arg8)) := by
  after_results_simp; rfl
set_option maxHeartbeats 1600000 in
theorem s2_v67 : StableHlo.after hostOps2 W (Proc.devRef .tc main_v67) = colVec (W (Proc.devRef .tc main_arg10)) := by
  after_results_simp; rfl
set_option maxHeartbeats 1600000 in
theorem s2_keep_arg9 : StableHlo.after hostOps2 W (Proc.devRef .tc main_arg9) = W (Proc.devRef .tc main_arg9) := by
  after_results_simp
set_option maxHeartbeats 1600000 in
theorem s2_keep_arg11 : StableHlo.after hostOps2 W (Proc.devRef .tc main_arg11) = W (Proc.devRef .tc main_arg11) := by
  after_results_simp

/-! ## The last stretch: the scores as a vector -/

theorem s3_v69 : StableHlo.after hostOps3 W (Proc.devRef .tc main_v69) = flat (W (Proc.devRef .tc main_v68)) := by
  after_results_simp; rfl

end Cert.KernelIdeal.KHost

end
-- ==== Proof.Spec.lean ====
/-
  The mathematics both programs compute, as whole-array functions on the extended reals.

  A GraphSAGE linear stage: entry (i, j) of the output is max(Σₖ A(i,k)·Wl(k,j) + b(j) + Σₖ X(i,k)·Wr(k,j), 0),
  A the (already normalised) neighbour aggregate and X the node features.  The edge scorer: for edge e,
  Σₖ max(Σ_q G1(e,q)·Wa(q,k) + Σ_q G2(e,q)·Wb(q,k) + b3(k), 0)·w4(k) + b4, G1 and G2 the source and destination
  node rows of the edge, Wa and Wb the upper and lower halves of one 256×256 weight matrix.  A sum over 256
  contraction indices of a row laid out as two halves side by side is the sum of the two half sums; the law holds
  in any commutative additive monoid, the infinities included.
-/
import Mathlib
import Idealize.ShloMosaic.Lib.ValueIdx
import Idealize.ShloMosaic.PureOps.Ideal

noncomputable section

namespace Cert.Spec

open Idealize.ShloMosaic Idealize.ShloMosaic.ValueIdx

/-- Node features, [50000, 128]. -/
abbrev NodeArr : Type := (⟨2, ![50000, 128]⟩ : Shape).Idx → EReal
/-- Edge features, [800000, 128]. -/
abbrev EdgeArr : Type := (⟨2, ![800000, 128]⟩ : Shape).Idx → EReal
/-- A square weight matrix, [128, 128]. -/
abbrev W128 : Type := (⟨2, ![128, 128]⟩ : Shape).Idx → EReal
/-- A bias vector, [128]. -/
abbrev B128 : Type := (⟨1, ![128]⟩ : Shape).Idx → EReal

/-- One SAGE linear stage with its rectifier, entry by entry. -/
def sageArr (A X : NodeArr) (Wl : W128) (b : B128) (Wr : W128) : NodeArr := fun i =>
  max ((∑ k : Fin 128, A (ix2 (i 0) k) * Wl (ix2 k (i 1))) + b (ix1 (i 1))
        + ∑ k : Fin 128, X (ix2 (i 0) k) * Wr (ix2 k (i 1))) 0

/-- The hidden unit k of edge e before the rectifier, the weight matrix given as its two halves. -/
def hiddenSplit (G1 G2 : EdgeArr) (Wa Wb : (⟨2, ![128, 256]⟩ : Shape).Idx → EReal)
    (b3 : (⟨1, ![256]⟩ : Shape).Idx → EReal) (e : Fin 800000) (k : Fin 256) : EReal :=
  (∑ q : Fin 128, G1 (ix2 e q) * Wa (ix2 q k)) + (∑ q : Fin 128, G2 (ix2 e q) * Wb (ix2 q k)) + b3 (ix1 k)

/-- The edge scorer, entry by entry of its [800000, 1] result. -/
def edgeArr (G1 G2 : EdgeArr) (Wa Wb : (⟨2, ![128, 256]⟩ : Shape).Idx → EReal)
    (b3 w4 : (⟨1, ![256]⟩ : Shape).Idx → EReal) (b4 : (⟨1, ![1]⟩ : Shape).Idx → EReal) :
    (⟨2, ![800000, 1]⟩ : Shape).Idx → EReal := fun i =>
  (∑ k : Fin 256, max (hiddenSplit G1 G2 Wa Wb b3 (i 0) k) 0 * w4 (ix1 k)) + b4 (ix1 0)

/-- The upper half of the 256×256 weight matrix. -/
def upperHalf (W : (⟨2, ![256, 256]⟩ : Shape).Idx → EReal) : (⟨2, ![128, 256]⟩ : Shape).Idx → EReal :=
  fun j => W (ix2 ⟨(j 0).val, by have := (j 0).isLt; show (j 0).val < 256; have h : (j 0).val < 128 := (j 0).isLt; omega⟩ (j 1))
/-- The lower half of the 256×256 weight matrix. -/
def lowerHalf (W : (⟨2, ![256, 256]⟩ : Shape).Idx → EReal) : (⟨2, ![128, 256]⟩ : Shape).Idx → EReal :=
  fun j => W (ix2 ⟨128 + (j 0).val, by show 128 + (j 0).val < 256; have h : (j 0).val < 128 := (j 0).isLt; omega⟩ (j 1))
/-- A [256, 1] column as a vector. -/
def column (W : (⟨2, ![256, 1]⟩ : Shape).Idx → EReal) : (⟨1, ![256]⟩ : Shape).Idx → EReal :=
  fun j => W (ix2 (j 0) 0)

/-- A sum over 256 indices is the sum over the first 128 plus the sum over the last 128. -/
theorem sum_halves {M : Type*} [AddCommMonoid M] (f : Fin 256 → M) :
    ∑ q : Fin 256, f q = (∑ q : Fin 128, f ⟨q.val, by omega⟩) + ∑ q : Fin 128, f ⟨128 + q.val, by omega⟩ := by
  have h := Fin.sum_univ_add (f := fun q : Fin (128 + 128) => f ⟨q.val, by have := q.isLt; omega⟩)
  simpa [Fin.castAdd, Fin.natAdd] using h

end Cert.Spec

end
-- ==== Proof.KValue.lean ====
/-
  The kernel program's result as one function of its twelve argument arrays.

  Boundary by boundary: the first stretch leaves the normalised aggregate of the narrowed features; the first region
  turns it into the first layer's output; the second stretch aggregates that output over the same edges with the same
  reciprocal counts; the second region gives the second layer's output; the third stretch takes its rows by source and
  by destination and halves the scorer's weights; the third region scores every edge; the last stretch lays the
  scores out as a vector.  A buffer a stretch or a region does not write keeps what it held.
-/
import proofs.«130986_j28862180229417_2_alg».proof.Proof.Gen.KernelIdeal.Frame
import proofs.«130986_j28862180229417_2_alg».proof.Proof.KHost
import proofs.«130986_j28862180229417_2_alg».proof.Proof.Spec

set_option maxRecDepth 16384

noncomputable section

namespace Cert.KernelIdeal.KValue

open Cert.KernelIdeal Cert.KernelIdeal.Gen Cert.KernelIdeal.KHost
open Idealize.ShloMosaic Idealize.ShloMosaic.TcCoe Idealize.ShloMosaic.StableHlo Idealize.SL.Sem

/-- Narrowing a float format: the identity on extended reals. -/
abbrev nar {s : Shape} (x : FVec Ideal s .f32) : FVec Ideal s .bf16 := truncf .bf16 x bitsLt_bf16_f32

/-- The first layer's output from the arguments. -/
def kH1 (a0 : (⟨S50000x128, .f32⟩ : BufTy).Contents (Elt Ideal)) (a1 : (⟨S2x800000, .i32⟩ : BufTy).Contents (Elt Ideal))
    (a2 : (⟨S128x128, .f32⟩ : BufTy).Contents (Elt Ideal)) (a3 : (⟨S128, .f32⟩ : BufTy).Contents (Elt Ideal))
    (a4 : (⟨S128x128, .f32⟩ : BufTy).Contents (Elt Ideal)) : (⟨S50000x128, .bf16⟩ : BufTy).Contents (Elt Ideal) :=
  Cert.Spec.sageArr (aggK (F := Ideal) (nar (s := S50000x128) a0) (srcOf a1) (dstOf a1) (cinvOf (dstOf a1))) (nar (s := S50000x128) a0) (nar (s := S128x128) a2) a3 (nar (s := S128x128) a4)

/-- The second layer's output from the arguments. -/
def kH2 (a0 : (⟨S50000x128, .f32⟩ : BufTy).Contents (Elt Ideal)) (a1 : (⟨S2x800000, .i32⟩ : BufTy).Contents (Elt Ideal))
    (a2 : (⟨S128x128, .f32⟩ : BufTy).Contents (Elt Ideal)) (a3 : (⟨S128, .f32⟩ : BufTy).Contents (Elt Ideal))
    (a4 : (⟨S128x128, .f32⟩ : BufTy).Contents (Elt Ideal)) (a5 : (⟨S128x128, .f32⟩ : BufTy).Contents (Elt Ideal))
    (a6 : (⟨S128, .f32⟩ : BufTy).Contents (Elt Ideal)) (a7 : (⟨S128x128, .f32⟩ : BufTy).Contents (Elt Ideal)) :
    (⟨S50000x128, .bf16⟩ : BufTy).Contents (Elt Ideal) :=
  Cert.Spec.sageArr (aggK (F := Ideal) (kH1 a0 a1 a2 a3 a4) (srcOf a1) (dstOf a1) (cinvOf (dstOf a1))) (kH1 a0 a1 a2 a3 a4) (nar (s := S128x128) a5) a6 (nar (s := S128x128) a7)

/-- The edge scores, as an [800000, 1] array, from the arguments. -/
def kScore (a0 : (⟨S50000x128, .f32⟩ : BufTy).Contents (Elt Ideal)) (a1 : (⟨S2x800000, .i32⟩ : BufTy).Contents (Elt Ideal))
    (a2 : (⟨S128x128, .f32⟩ : BufTy).Contents (Elt Ideal)) (a3 : (⟨S128, .f32⟩ : BufTy).Contents (Elt Ideal))
    (a4 : (⟨S128x128, .f32⟩ : BufTy).Contents (Elt Ideal)) (a5 : (⟨S128x128, .f32⟩ : BufTy).Contents (Elt Ideal))
    (a6 : (⟨S128, .f32⟩ : BufTy).Contents (Elt Ideal)) (a7 : (⟨S128x128, .f32⟩ : BufTy).Contents (Elt Ideal))
    (a8 : (⟨S256x256, .f32⟩ : BufTy).Contents (Elt Ideal)) (a9 : (⟨S256, .f32⟩ : BufTy).Contents (Elt Ideal))
    (a10 : (⟨S256x1, .f32⟩ : BufTy).Contents (Elt Ideal)) (a11 : (⟨S1, .f32⟩ : BufTy).Contents (Elt Ideal)) :
    (⟨S800000x1, .f32⟩ : BufTy).Contents (Elt Ideal) :=
  Cert.Spec.edgeArr (rowsBy (F := Ideal) (kH2 a0 a1 a2 a3 a4 a5 a6 a7) (srcOf a1)) (rowsBy (F := Ideal) (kH2 a0 a1 a2 a3 a4 a5 a6 a7) (dstOf a1))
    (topRows a8) (bottomRows a8) a9 (colVec a10) a11

variable (m : (ℓ : Loc nD τ sig) → Buf (Elt Ideal) ℓ) (ρ : Dev nD → PrngReg) (c : Dev nD)

/-! ## At the first region's entry -/

theorem b1_v1 : W1 m ρ c (Proc.devRef .tc main_v1) = srcOf (m ((c : Thread nD τ).loc main_arg1)) := s0_v1 (W0 m ρ c)
theorem b1_v3 : W1 m ρ c (Proc.devRef .tc main_v3) = dstOf (m ((c : Thread nD τ).loc main_arg1)) := s0_v3 (W0 m ρ c)
theorem b1_v11 : W1 m ρ c (Proc.devRef .tc main_v11) = cinvOf (dstOf (m ((c : Thread nD τ).loc main_arg1))) := s0_v11 (W0 m ρ c)
theorem b1_v12 : W1 m ρ c (Proc.devRef .tc main_v12) = nar (s := S50000x128) (m ((c : Thread nD τ).loc main_arg0)) := s0_v12 (W0 m ρ c)
theorem b1_v27 : W1 m ρ c (Proc.devRef .tc main_v27) = aggK (nar (s := S50000x128) (m ((c : Thread nD τ).loc main_arg0))) (srcOf (m ((c : Thread nD τ).loc main_arg1))) (dstOf (m ((c : Thread nD τ).loc main_arg1))) (cinvOf (dstOf (m ((c : Thread nD τ).loc main_arg1)))) := s0_v27 (W0 m ρ c)
theorem b1_v28 : W1 m ρ c (Proc.devRef .tc main_v28) = nar (s := S128x128) (m ((c : Thread nD τ).loc main_arg2)) := s0_v28 (W0 m ρ c)
theorem b1_v29 : W1 m ρ c (Proc.devRef .tc main_v29) = nar (s := S128x128) (m ((c : Thread nD τ).loc main_arg4)) := s0_v29 (W0 m ρ c)
theorem b1_arg3 : W1 m ρ c (Proc.devRef .tc main_arg3) = m ((c : Thread nD τ).loc main_arg3) := s0_keep_arg3 (W0 m ρ c)
theorem b1_arg5 : W1 m ρ c (Proc.devRef .tc main_arg5) = m ((c : Thread nD τ).loc main_arg5) := s0_keep_arg5 (W0 m ρ c)
theorem b1_arg6 : W1 m ρ c (Proc.devRef .tc main_arg6) = m ((c : Thread nD τ).loc main_arg6) := s0_keep_arg6 (W0 m ρ c)
theorem b1_arg7 : W1 m ρ c (Proc.devRef .tc main_arg7) = m ((c : Thread nD τ).loc main_arg7) := s0_keep_arg7 (W0 m ρ c)
theorem b1_arg8 : W1 m ρ c (Proc.devRef .tc main_arg8) = m ((c : Thread nD τ).loc main_arg8) := s0_keep_arg8 (W0 m ρ c)
theorem b1_arg9 : W1 m ρ c (Proc.devRef .tc main_arg9) = m ((c : Thread nD τ).loc main_arg9) := s0_keep_arg9 (W0 m ρ c)
theorem b1_arg10 : W1 m ρ c (Proc.devRef .tc main_arg10) = m ((c : Thread nD τ).loc main_arg10) := s0_keep_arg10 (W0 m ρ c)
theorem b1_arg11 : W1 m ρ c (Proc.devRef .tc main_arg11) = m ((c : Thread nD τ).loc main_arg11) := s0_keep_arg11 (W0 m ρ c)

/-! ## At the first region's exit -/

theorem b2_v30 (hf0 : ∀ (V : (c : Dev nD) → (b : Ref sig .tc) → Buf (Elt Ideal) ((c : Thread nD τ).loc b)) (c : Dev nD), (dat0 (F := Ideal) V c).arrAt 5 cfg0.N = Cert.Spec.sageArr (V c main_v27) (V c main_v12) (V c main_v28) (V c main_arg3) (V c main_v29)) :
    W2 m ρ c (Proc.devRef .tc main_v30) = kH1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((hf0 (V1 m ρ) c).trans ?_)
  show Cert.Spec.sageArr (W1 m ρ c (Proc.devRef .tc main_v27)) (W1 m ρ c (Proc.devRef .tc main_v12)) (W1 m ρ c (Proc.devRef .tc main_v28)) (W1 m ρ c (Proc.devRef .tc main_arg3)) (W1 m ρ c (Proc.devRef .tc main_v29)) = _
  rw [b1_v27, b1_v12, b1_v28, b1_arg3, b1_v29]; rfl
theorem b2_keep_v1 : W2 m ρ c (Proc.devRef .tc main_v1) = W1 m ρ c (Proc.devRef .tc main_v1) := W2_of_ne m ρ c main_v1 (by decide)
theorem b2_keep_v3 : W2 m ρ c (Proc.devRef .tc main_v3) = W1 m ρ c (Proc.devRef .tc main_v3) := W2_of_ne m ρ c main_v3 (by decide)
theorem b2_keep_v11 : W2 m ρ c (Proc.devRef .tc main_v11) = W1 m ρ c (Proc.devRef .tc main_v11) := W2_of_ne m ρ c main_v11 (by decide)
theorem b2_keep_arg5 : W2 m ρ c (Proc.devRef .tc main_arg5) = W1 m ρ c (Proc.devRef .tc main_arg5) := W2_of_ne m ρ c main_arg5 (by decide)
theorem b2_keep_arg6 : W2 m ρ c (Proc.devRef .tc main_arg6) = W1 m ρ c (Proc.devRef .tc main_arg6) := W2_of_ne m ρ c main_arg6 (by decide)
theorem b2_keep_arg7 : W2 m ρ c (Proc.devRef .tc main_arg7) = W1 m ρ c (Proc.devRef .tc main_arg7) := W2_of_ne m ρ c main_arg7 (by decide)
theorem b2_keep_arg8 : W2 m ρ c (Proc.devRef .tc main_arg8) = W1 m ρ c (Proc.devRef .tc main_arg8) := W2_of_ne m ρ c main_arg8 (by decide)
theorem b2_keep_arg9 : W2 m ρ c (Proc.devRef .tc main_arg9) = W1 m ρ c (Proc.devRef .tc main_arg9) := W2_of_ne m ρ c main_arg9 (by decide)
theorem b2_keep_arg10 : W2 m ρ c (Proc.devRef .tc main_arg10) = W1 m ρ c (Proc.devRef .tc main_arg10) := W2_of_ne m ρ c main_arg10 (by decide)
theorem b2_keep_arg11 : W2 m ρ c (Proc.devRef .tc main_arg11) = W1 m ρ c (Proc.devRef .tc main_arg11) := W2_of_ne m ρ c main_arg11 (by decide)

/-! ## At the second region's entry -/

theorem b3_v30 (hf0 : ∀ (V : (c : Dev nD) → (b : Ref sig .tc) → Buf (Elt Ideal) ((c : Thread nD τ).loc b)) (c : Dev nD), (dat0 (F := Ideal) V c).arrAt 5 cfg0.N = Cert.Spec.sageArr (V c main_v27) (V c main_v12) (V c main_v28) (V c main_arg3) (V c main_v29)) :
    W3 m ρ c (Proc.devRef .tc main_v30) = kH1 (m ((c : Thread nD τ).loc main_arg0)) (m ((c : Thread nD τ).loc main_arg1)) (m ((c : Thread nD τ).loc main_arg2)) (m ((c : Thread nD τ).loc main_arg3)) (m ((c : Thread nD τ).loc main_arg4)) :=
  (s1_keep_v30 (W2 m ρ c)).trans (b2_v30 m ρ c hf0)
theorem b3_v1 : W3 m ρ c (Proc.devRef .tc main_v1) = srcOf (m ((c : Thread nD τ).loc main_arg1)) :=
  (s1_keep_v1 (W2 m ρ c)).trans ((b2_keep_v1 m ρ c).trans (b1_v1 m ρ c))
theorem b3_v3 : W3 m ρ c (Proc.devRef .tc main_v3) = dstOf (m ((c : Thread nD τ).loc main_arg1)) :=
  (s1_keep_v3 (W2 m ρ c)).trans ((b2_keep_v3 m ρ c).trans (b1_v3 m ρ c))
theorem b3_v45 (hf0 : ∀ (V : (c : Dev nD) → (b : Ref sig .tc) → Buf (Elt Ideal) ((c : Thread nD τ).loc b)) (c : Dev nD), (dat0 (F := Ideal) V c).arrAt 5 cfg0.N = Cert.Spec.sageArr (V c main_v27) (V c main_v12) (V c main_v28) (V c main_arg3) (V c main_v29)) :
    W3 m ρ c (Proc.devRef .tc main_v45) = aggK (F := Ideal) (kH1 (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) (cinvOf (dstOf (m ((c : Thread nD τ).loc main_arg1)))) := by
  refine (s1_v45 (W2 m ρ c)).trans ?_
  rw [b2_v30 m ρ c hf0, b2_keep_v1, b2_keep_v3, b2_keep_v11, b1_v1, b1_v3, b1_v11]
theorem b3_v46 : W3 m ρ c (Proc.devRef .tc main_v46) = nar (s := S128x128) (m ((c : Thread nD τ).loc main_arg5)) := by
  refine (s1_v46 (W2 m ρ c)).trans ?_
  rw [b2_keep_arg5, b1_arg5]
theorem b3_v47 : W3 m ρ c (Proc.devRef .tc main_v47) = nar (s := S128x128) (m ((c : Thread nD τ).loc main_arg7)) := by
  refine (s1_v47 (W2 m ρ c)).trans ?_
  rw [b2_keep_arg7, b1_arg7]
theorem b3_arg6 : W3 m ρ c (Proc.devRef .tc main_arg6) = m ((c : Thread nD τ).loc main_arg6) :=
  (s1_keep_arg6 (W2 m ρ c)).trans ((b2_keep_arg6 m ρ c).trans (b1_arg6 m ρ c))
theorem b3_arg8 : W3 m ρ c (Proc.devRef .tc main_arg8) = m ((c : Thread nD τ).loc main_arg8) :=
  (s1_keep_arg8 (W2 m ρ c)).trans ((b2_keep_arg8 m ρ c).trans (b1_arg8 m ρ c))
theorem b3_arg9 : W3 m ρ c (Proc.devRef .tc main_arg9) = m ((c : Thread nD τ).loc main_arg9) :=
  (s1_keep_arg9 (W2 m ρ c)).trans ((b2_keep_arg9 m ρ c).trans (b1_arg9 m ρ c))
theorem b3_arg10 : W3 m ρ c (Proc.devRef .tc main_arg10) = m ((c : Thread nD τ).loc main_arg10) :=
  (s1_keep_arg10 (W2 m ρ c)).trans ((b2_keep_arg10 m ρ c).trans (b1_arg10 m ρ c))
theorem b3_arg11 : W3 m ρ c (Proc.devRef .tc main_arg11) = m ((c : Thread nD τ).loc main_arg11) :=
  (s1_keep_arg11 (W2 m ρ c)).trans ((b2_keep_arg11 m ρ c).trans (b1_arg11 m ρ c))

/-! ## At the second region's exit -/

theorem b4_v48 (hf0 : ∀ (V : (c : Dev nD) → (b : Ref sig .tc) → Buf (Elt Ideal) ((c : Thread nD τ).loc b)) (c : Dev nD), (dat0 (F := Ideal) V c).arrAt 5 cfg0.N = Cert.Spec.sageArr (V c main_v27) (V c main_v12) (V c main_v28) (V c main_arg3) (V c main_v29))
    (hf1 : ∀ (V : (c : Dev nD) → (b : Ref sig .tc) → Buf (Elt Ideal) ((c : Thread nD τ).loc b)) (c : Dev nD), (dat1 (F := Ideal) V c).arrAt 5 cfg1.N = Cert.Spec.sageArr (V c main_v45) (V c main_v30) (V c main_v46) (V c main_arg6) (V c main_v47)) :
    W4 m ρ c (Proc.devRef .tc main_v48) = kH2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((hf1 (V3 m ρ) c).trans ?_)
  show Cert.Spec.sageArr (W3 m ρ c (Proc.devRef .tc main_v45)) (W3 m ρ c (Proc.devRef .tc main_v30)) (W3 m ρ c (Proc.devRef .tc main_v46)) (W3 m ρ c (Proc.devRef .tc main_arg6)) (W3 m ρ c (Proc.devRef .tc main_v47)) = _
  rw [b3_v45 m ρ c hf0, b3_v30 m ρ c hf0, b3_v46, b3_arg6, b3_v47]; rfl
theorem b4_keep_v1 : W4 m ρ c (Proc.devRef .tc main_v1) = W3 m ρ c (Proc.devRef .tc main_v1) := W4_of_ne m ρ c main_v1 (by decide)
theorem b4_keep_v3 : W4 m ρ c (Proc.devRef .tc main_v3) = W3 m ρ c (Proc.devRef .tc main_v3) := W4_of_ne m ρ c main_v3 (by decide)
theorem b4_keep_arg8 : W4 m ρ c (Proc.devRef .tc main_arg8) = W3 m ρ c (Proc.devRef .tc main_arg8) := W4_of_ne m ρ c main_arg8 (by decide)
theorem b4_keep_arg9 : W4 m ρ c (Proc.devRef .tc main_arg9) = W3 m ρ c (Proc.devRef .tc main_arg9) := W4_of_ne m ρ c main_arg9 (by decide)
theorem b4_keep_arg10 : W4 m ρ c (Proc.devRef .tc main_arg10) = W3 m ρ c (Proc.devRef .tc main_arg10) := W4_of_ne m ρ c main_arg10 (by decide)
theorem b4_keep_arg11 : W4 m ρ c (Proc.devRef .tc main_arg11) = W3 m ρ c (Proc.devRef .tc main_arg11) := W4_of_ne m ρ c main_arg11 (by decide)

/-! ## At the scorer's entry -/

theorem b5_v55 (hf0 : ∀ (V : (c : Dev nD) → (b : Ref sig .tc) → Buf (Elt Ideal) ((c : Thread nD τ).loc b)) (c : Dev nD), (dat0 (F := Ideal) V c).arrAt 5 cfg0.N = Cert.Spec.sageArr (V c main_v27) (V c main_v12) (V c main_v28) (V c main_arg3) (V c main_v29))
    (hf1 : ∀ (V : (c : Dev nD) → (b : Ref sig .tc) → Buf (Elt Ideal) ((c : Thread nD τ).loc b)) (c : Dev nD), (dat1 (F := Ideal) V c).arrAt 5 cfg1.N = Cert.Spec.sageArr (V c main_v45) (V c main_v30) (V c main_v46) (V c main_arg6) (V c main_v47)) :
    W5 m ρ c (Proc.devRef .tc main_v55) = rowsBy (F := Ideal) (kH2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (srcOf (m ((c : Thread nD τ).loc main_arg1))) := by
  refine (s2_v55 (W4 m ρ c)).trans ?_
  rw [b4_v48 m ρ c hf0 hf1, b4_keep_v1, b3_v1]
theorem b5_v62 (hf0 : ∀ (V : (c : Dev nD) → (b : Ref sig .tc) → Buf (Elt Ideal) ((c : Thread nD τ).loc b)) (c : Dev nD), (dat0 (F := Ideal) V c).arrAt 5 cfg0.N = Cert.Spec.sageArr (V c main_v27) (V c main_v12) (V c main_v28) (V c main_arg3) (V c main_v29))
    (hf1 : ∀ (V : (c : Dev nD) → (b : Ref sig .tc) → Buf (Elt Ideal) ((c : Thread nD τ).loc b)) (c : Dev nD), (dat1 (F := Ideal) V c).arrAt 5 cfg1.N = Cert.Spec.sageArr (V c main_v45) (V c main_v30) (V c main_v46) (V c main_arg6) (V c main_v47)) :
    W5 m ρ c (Proc.devRef .tc main_v62) = rowsBy (F := Ideal) (kH2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (dstOf (m ((c : Thread nD τ).loc main_arg1))) := by
  refine (s2_v62 (W4 m ρ c)).trans ?_
  rw [b4_v48 m ρ c hf0 hf1, b4_keep_v3, b3_v3]
theorem b5_v65 : W5 m ρ c (Proc.devRef .tc main_v65) = topRows (m ((c : Thread nD τ).loc main_arg8)) := by
  refine (s2_v65 (W4 m ρ c)).trans ?_
  rw [b4_keep_arg8, b3_arg8]
theorem b5_v66 : W5 m ρ c (Proc.devRef .tc main_v66) = bottomRows (m ((c : Thread nD τ).loc main_arg8)) := by
  refine (s2_v66 (W4 m ρ c)).trans ?_
  rw [b4_keep_arg8, b3_arg8]
theorem b5_v67 : W5 m ρ c (Proc.devRef .tc main_v67) = colVec (m ((c : Thread nD τ).loc main_arg10)) := by
  refine (s2_v67 (W4 m ρ c)).trans ?_
  rw [b4_keep_arg10, b3_arg10]
theorem b5_arg9 : W5 m ρ c (Proc.devRef .tc main_arg9) = m ((c : Thread nD τ).loc main_arg9) :=
  (s2_keep_arg9 (W4 m ρ c)).trans ((b4_keep_arg9 m ρ c).trans (b3_arg9 m ρ c))
theorem b5_arg11 : W5 m ρ c (Proc.devRef .tc main_arg11) = m ((c : Thread nD τ).loc main_arg11) :=
  (s2_keep_arg11 (W4 m ρ c)).trans ((b4_keep_arg11 m ρ c).trans (b3_arg11 m ρ c))

/-! ## The scores, and the result -/

theorem b6_v68 (hf0 : ∀ (V : (c : Dev nD) → (b : Ref sig .tc) → Buf (Elt Ideal) ((c : Thread nD τ).loc b)) (c : Dev nD), (dat0 (F := Ideal) V c).arrAt 5 cfg0.N = Cert.Spec.sageArr (V c main_v27) (V c main_v12) (V c main_v28) (V c main_arg3) (V c main_v29))
    (hf1 : ∀ (V : (c : Dev nD) → (b : Ref sig .tc) → Buf (Elt Ideal) ((c : Thread nD τ).loc b)) (c : Dev nD), (dat1 (F := Ideal) V c).arrAt 5 cfg1.N = Cert.Spec.sageArr (V c main_v45) (V c main_v30) (V c main_v46) (V c main_arg6) (V c main_v47))
    (hf2 : ∀ (V : (c : Dev nD) → (b : Ref sig .tc) → Buf (Elt Ideal) ((c : Thread nD τ).loc b)) (c : Dev nD), (dat2 (F := Ideal) V c).arrAt 7 cfg2.N = Cert.Spec.edgeArr (V c main_v55) (V c main_v62) (V c main_v65) (V c main_v66) (V c main_arg9) (V c main_v67) (V c main_arg11)) :
    W6 m ρ c (Proc.devRef .tc main_v68) = kScore (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 7).trans ((hf2 (V5 m ρ) c).trans ?_)
  show Cert.Spec.edgeArr (W5 m ρ c (Proc.devRef .tc main_v55)) (W5 m ρ c (Proc.devRef .tc main_v62)) (W5 m ρ c (Proc.devRef .tc main_v65)) (W5 m ρ c (Proc.devRef .tc main_v66)) (W5 m ρ c (Proc.devRef .tc main_arg9)) (W5 m ρ c (Proc.devRef .tc main_v67)) (W5 m ρ c (Proc.devRef .tc main_arg11)) = _
  rw [b5_v55 m ρ c hf0 hf1, b5_v62 m ρ c hf0 hf1, b5_v65, b5_v66, b5_arg9, b5_v67, b5_arg11]; rfl

/-- The result buffer at the end of the run: the scores of every edge, as a vector. -/
theorem value (hf0 : ∀ (V : (c : Dev nD) → (b : Ref sig .tc) → Buf (Elt Ideal) ((c : Thread nD τ).loc b)) (c : Dev nD), (dat0 (F := Ideal) V c).arrAt 5 cfg0.N = Cert.Spec.sageArr (V c main_v27) (V c main_v12) (V c main_v28) (V c main_arg3) (V c main_v29))
    (hf1 : ∀ (V : (c : Dev nD) → (b : Ref sig .tc) → Buf (Elt Ideal) ((c : Thread nD τ).loc b)) (c : Dev nD), (dat1 (F := Ideal) V c).arrAt 5 cfg1.N = Cert.Spec.sageArr (V c main_v45) (V c main_v30) (V c main_v46) (V c main_arg6) (V c main_v47))
    (hf2 : ∀ (V : (c : Dev nD) → (b : Ref sig .tc) → Buf (Elt Ideal) ((c : Thread nD τ).loc b)) (c : Dev nD), (dat2 (F := Ideal) V c).arrAt 7 cfg2.N = Cert.Spec.edgeArr (V c main_v55) (V c main_v62) (V c main_v65) (V c main_v66) (V c main_arg9) (V c main_v67) (V c main_arg11)) :
    W7 m ρ c (Proc.devRef .tc main_v69) = flat (F := Ideal) (kScore (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (s3_v69 (W6 m ρ c)).trans ?_
  rw [b6_v68 m ρ c hf0 hf1 hf2]

end Cert.KernelIdeal.KValue

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.SagePay.lean ====
/-
  One GraphSAGE linear stage on a block of 2000 rows, read at an entry. The block computation is two matrix
  products into zero accumulators, the bias row added to the first, the two added, and the rectifier:
  entry (r, j) is max(Σₖ A(r,k)·Wl(k,j) + b(j) + Σₖ X(r,k)·Wr(k,j), 0), A the aggregate block and X the feature
  block. Each product contracts axis 1 of its left operand with axis 0 of its right one, so its entry is the
  sum over k : Fin 128 of row entry times column entry; the bias [128] is viewed as one row [1, 128] and that
  row repeated over the 2000 rows; the rectifier's zero word is the extended real 0; the changes of format are
  the identity on extended reals. Last, the same expression over blocks whose entries are entries of whole arrays
  (row r of the row blocks is row R of the arrays, the weights and the bias are read whole) is the stage's
  whole-array value at (R, j).
-/
import Mathlib
import proofs.«130986_j28862180229417_2_alg».proof.Proof.Gen.KernelIdeal.Skeleton
import proofs.«130986_j28862180229417_2_alg».proof.Proof.LibDot
import proofs.«130986_j28862180229417_2_alg».proof.Proof.Spec
import Idealize.ShloMosaic.Lib.ValueLayout

noncomputable section

namespace Cert.KernelIdeal.SageValue

open Cert.KernelIdeal Cert.KernelIdeal.Gen Idealize.ShloMosaic Idealize.ShloMosaic.ValueIdx Idealize.SL.Sem

/-- The stage's dimension numbers are those of a plain rows-by-columns product [2000, 128] × [128, 128]. -/
theorem dot_plain : Cert.LibDot.Plain dot_S2000x128_S128x128_S2000x128_1_0_0_1_n_n where
  hrank := rfl
  hs := rfl
  hl0 := fun j k => by
    unfold DotDims.lhsIdx
    rw [dif_neg (show ¬(0 : Fin S2000x128.rank) ∈ dot_S2000x128_S128x128_S2000x128_1_0_0_1_n_n.lhsBatch by decide),
      dif_pos (show (0 : Fin S2000x128.rank) ∈ dot_S2000x128_S128x128_S2000x128_1_0_0_1_n_n.lhsNonContracting by decide)]
    rfl
  hl1 := fun j k => dot_S2000x128_S128x128_S2000x128_1_0_0_1_n_n.lhsIdx_val_of_single rfl j k
  hr0 := fun j k => dot_S2000x128_S128x128_S2000x128_1_0_0_1_n_n.rhsIdx_val_of_single rfl j k
  hr1 := fun j k => by
    unfold DotDims.rhsIdx
    rw [dif_neg (show ¬(1 : Fin S128x128.rank) ∈ dot_S2000x128_S128x128_S2000x128_1_0_0_1_n_n.rhsBatch by decide),
      dif_pos (show (1 : Fin S128x128.rank) ∈ dot_S2000x128_S128x128_S2000x128_1_0_0_1_n_n.rhsNonContracting by decide)]
    rfl

/-- The bias vector as one row repeated over the block's rows, at entry (r, j): the bias at j. -/
theorem bias_apply (x3 : FVec Ideal S128 .f32) (r : Fin 2000) (j : Fin 128) :
    broadcastTo S2000x128 (shapeCast S1x128 x3 shapeCasts_S128_S1x128) broadcasts_S1x128_S2000x128 (ix2 r j)
      = x3 (ix1 j) :=
  (broadcastTo_1b_ab_apply (shapeCast S1x128 x3 shapeCasts_S128_S1x128) broadcasts_S1x128_S2000x128 r j).trans
    (shapeCast_a_1a_apply x3 shapeCasts_S128_S1x128 (0 : Fin 1) j)

/-- The first stage's block computation at entry (r, j). -/
theorem pay0_apply (x0 x1 : FVec Ideal S2000x128 .bf16) (x2 x4 : FVec Ideal S128x128 .bf16) (x3 : FVec Ideal S128 .f32)
    (r : Fin 2000) (j : Fin 128) :
    Gen.k0_pay1 (F := Ideal) x0 x1 x2 x4 x3 (ix2 r j)
      = max ((∑ k : Fin 128, x0 (ix2 r k) * x2 (ix2 k j)) + x3 (ix1 j) + ∑ k : Fin 128, x1 (ix2 r k) * x4 (ix2 k j)) 0 := by
  unfold Gen.k0_pay1
  simp only [shapeCast_self]
  show max ((matmul dot_S2000x128_S128x128_S2000x128_1_0_0_1_n_n none x0 x2 (constant (F := Ideal) S2000x128 .f32 0x00000000#32) (ix2 r j)
        + broadcastTo S2000x128 (shapeCast S1x128 x3 shapeCasts_S128_S1x128) broadcasts_S1x128_S2000x128 (ix2 r j))
      + matmul dot_S2000x128_S128x128_S2000x128_1_0_0_1_n_n none x1 x4 (constant (F := Ideal) S2000x128 .f32 0x00000000#32) (ix2 r j))
      (Ideal.ofBits .f32 0x00000000#32) = _
  rw [Cert.LibDot.matmul_ix2 dot_plain none x0 x2 r j, Cert.LibDot.matmul_ix2 dot_plain none x1 x4 r j,
    bias_apply x3 r j, Ideal.ofBits_zero_f32]

/-- The second stage's block computation is the same text as the first's. -/
theorem k1_eq : @Gen.k1_pay1 = @Gen.k0_pay1 := rfl

/-- The second stage's block computation at entry (r, j). -/
theorem pay1_apply (x0 x1 : FVec Ideal S2000x128 .bf16) (x2 x4 : FVec Ideal S128x128 .bf16) (x3 : FVec Ideal S128 .f32)
    (r : Fin 2000) (j : Fin 128) :
    Gen.k1_pay1 (F := Ideal) x0 x1 x2 x4 x3 (ix2 r j)
      = max ((∑ k : Fin 128, x0 (ix2 r k) * x2 (ix2 k j)) + x3 (ix1 j) + ∑ k : Fin 128, x1 (ix2 r k) * x4 (ix2 k j)) 0 := by
  rw [k1_eq]
  exact pay0_apply x0 x1 x2 x4 x3 r j

/-- The block expression at (r, j) is the stage's whole-array value at (R, j), when row r of the two row blocks is
    row R of the aggregate and of the features and the weight and bias blocks are the arrays themselves. -/
theorem sage_entry (A X : S50000x128.Idx → EReal) (Wl : S128x128.Idx → EReal) (b : S128.Idx → EReal) (Wr : S128x128.Idx → EReal)
    (x0 x1 : S2000x128.Idx → EReal) (x2 : S128x128.Idx → EReal) (x3 : S128.Idx → EReal) (x4 : S128x128.Idx → EReal)
    (R : Fin 50000) (r : Fin 2000) (j : Fin 128)
    (h0 : ∀ k : Fin 128, x0 (ix2 r k) = A (ix2 R k)) (h1 : ∀ k : Fin 128, x1 (ix2 r k) = X (ix2 R k))
    (h2 : ∀ k : Fin 128, x2 (ix2 k j) = Wl (ix2 k j)) (h3 : x3 (ix1 j) = b (ix1 j))
    (h4 : ∀ k : Fin 128, x4 (ix2 k j) = Wr (ix2 k j)) :
    max ((∑ k : Fin 128, x0 (ix2 r k) * x2 (ix2 k j)) + x3 (ix1 j) + ∑ k : Fin 128, x1 (ix2 r k) * x4 (ix2 k j)) 0
      = Cert.Spec.sageArr A X Wl b Wr (ix2 R j) := by
  show _ = max ((∑ k : Fin 128, A (ix2 R k) * Wl (ix2 k j)) + b (ix1 j) + ∑ k : Fin 128, X (ix2 R k) * Wr (ix2 k j)) 0
  rw [h3, Finset.sum_congr rfl fun k _ => show x0 (ix2 r k) * x2 (ix2 k j) = A (ix2 R k) * Wl (ix2 k j) by rw [h0 k, h2 k],
    Finset.sum_congr rfl fun k _ => show x1 (ix2 r k) * x4 (ix2 k j) = X (ix2 R k) * Wr (ix2 k j) by rw [h1 k, h4 k]]

end Cert.KernelIdeal.SageValue

end
-- ==== Proof.SageFinal0.lean ====
/-
  The first GraphSAGE linear stage, from blocks to the whole array. The grid has 25 points; point t reads rows
  2000·t … 2000·t + 1999 of the aggregate and of the features, the whole of the two weight matrices and of the
  bias, and writes rows 2000·t … 2000·t + 1999 of the result. Entry (r, j) of what point t writes is the stage's
  value at row 2000·t + r and column j of the whole arrays, so each point writes its block of ONE function of the
  arrays; the 25 blocks cover the 50000 rows (row i lies in the block of point i / 2000), so the result array
  ends holding that function.
-/
import Mathlib
import proofs.«130986_j28862180229417_2_alg».proof.Proof.Gen.KernelIdeal.Frame
import proofs.«130986_j28862180229417_2_alg».proof.Proof.Spec
import proofs.«130986_j28862180229417_2_alg».proof.Proof.SagePay
import Idealize.ShloMosaic.Lib.Pipeline.Value
import Idealize.ShloMosaic.Lib.ValueIdx

noncomputable section

namespace Cert.KernelIdeal.SageValue

open Cert.KernelIdeal Cert.KernelIdeal.Gen Idealize.ShloMosaic Idealize.ShloMosaic.ValueIdx Idealize.SL.Sem
open Idealize.ShloMosaic.TcCoe
open Idealize.ShloMosaic.Pipeline (Dat)

/-- The zero offsets of a rank-2 block, as the constant function. -/
theorem hz2_0 : (![0, 0] : Fin 2 → Nat) = fun _ => 0 := funext fun a => by fin_cases a <;> rfl
/-- The zero offset of a rank-1 block, as the constant function. -/
theorem hz1_0 : (![0] : Fin 1 → Nat) = fun _ => 0 := funext fun a => by fin_cases a <;> rfl

/-- The index maps over the grid: the aggregate, feature and result windows are at block row t and block column 0,
    the weight and bias windows at block 0 on every axis. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the body leaves in the result block, at entry (r, j), over any five input blocks. -/
theorem out0_apply (x0 x1 : FVec Ideal S2000x128 .bf16) (x2 : FVec Ideal S128x128 .bf16) (x3 : FVec Ideal S128 .f32)
    (x4 : FVec Ideal S128x128 .bf16) (r : Fin 2000) (j : Fin 128) :
    Gen.out0_5 (F := Ideal) x0 x1 x2 x3 x4 (ix2 r j)
      = max ((∑ k : Fin 128, x0 (ix2 r k) * x2 (ix2 k j)) + x3 (ix1 j) + ∑ k : Fin 128, x1 (ix2 r k) * x4 (ix2 k j)) 0 := by
  unfold Gen.out0_5
  rw [View.canon_unit_zero hz2_0]
  simp only [View.ld_unit_zero (S := S2000x128) hz2_0, View.ld_unit_zero (S := S128x128) hz2_0,
    View.ld_unit_zero (S := S128) hz1_0]
  exact pay0_apply x0 x1 x2 x4 x3 r j

section
variable (V : (c : Dev nD) → (b : Ref sig .tc) → Buf (Elt Ideal) ((c : Thread nD τ).loc b))

/-- The aggregate block of point t at (r, k) is the aggregate at row 2000·t + r. -/
theorem blk0_0 (c : Dev nD) (t : Fin cfg0.N) (r : Fin 2000) (k : Fin 128) (R : Fin 50000) (hR : R.val = t.val * 2000 + r.val) :
    (Gen.iblk0 (F := Ideal) V c 0 t : S2000x128.Idx → EReal) (ix2 r k) = (V c main_v27 : S50000x128.Idx → EReal) (ix2 R k) := by
  obtain ⟨e00, e01, -⟩ := idx_facts0 t
  unfold Gen.iblk0
  rw [View.read_apply]
  show (V c main_v27 : S50000x128.Idx → EReal) (((cfg0.win 0).blk t).view.emb (ix2 r k)) = _
  refine congrArg _ (funext fun a => Fin.ext ?_)
  match a with
  | ⟨0, _⟩ => show win0_0.index t (0 : Fin 2) * 2000 + 1 * r.val = R.val; omega
  | ⟨1, _⟩ => show win0_0.index t (1 : Fin 2) * 128 + 1 * k.val = k.val; omega

/-- The feature block of point t at (r, k) is the features at row 2000·t + r. -/
theorem blk0_1 (c : Dev nD) (t : Fin cfg0.N) (r : Fin 2000) (k : Fin 128) (R : Fin 50000) (hR : R.val = t.val * 2000 + r.val) :
    (Gen.iblk0 (F := Ideal) V c 1 t : S2000x128.Idx → EReal) (ix2 r k) = (V c main_v12 : S50000x128.Idx → EReal) (ix2 R k) := by
  obtain ⟨-, -, e10, e11, -⟩ := idx_facts0 t
  unfold Gen.iblk0
  rw [View.read_apply]
  show (V c main_v12 : S50000x128.Idx → EReal) (((cfg0.win 1).blk t).view.emb (ix2 r k)) = _
  refine congrArg _ (funext fun a => Fin.ext ?_)
  match a with
  | ⟨0, _⟩ => show win0_1.index t (0 : Fin 2) * 2000 + 1 * r.val = R.val; omega
  | ⟨1, _⟩ => show win0_1.index t (1 : Fin 2) * 128 + 1 * k.val = k.val; omega

/-- The first weight matrix's block at every point is the whole matrix. -/
theorem blk0_2 (c : Dev nD) (t : Fin cfg0.N) (k : Fin 128) (j : Fin 128) :
    (Gen.iblk0 (F := Ideal) V c 2 t : S128x128.Idx → EReal) (ix2 k j) = (V c main_v28 : S128x128.Idx → EReal) (ix2 k j) := by
  obtain ⟨-, -, -, -, e20, e21, -⟩ := idx_facts0 t
  unfold Gen.iblk0
  rw [View.read_apply]
  show (V c main_v28 : S128x128.Idx → EReal) (((cfg0.win 2).blk t).view.emb (ix2 k j)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

/-- The bias's block at every point is the whole bias. -/
theorem blk0_3 (c : Dev nD) (t : Fin cfg0.N) (j : Fin 128) :
    (Gen.iblk0 (F := Ideal) V c 3 t : S128.Idx → EReal) (ix1 j) = (V c main_arg3 : S128.Idx → EReal) (ix1 j) := by
  obtain ⟨-, -, -, -, -, -, e30, -⟩ := idx_facts0 t
  unfold Gen.iblk0
  rw [View.read_apply]
  show (V c main_arg3 : S128.Idx → EReal) (((cfg0.win 3).blk t).view.emb (ix1 j)) = _
  refine congrArg _ (funext fun a => Fin.ext ?_)
  match a with
  | ⟨0, _⟩ => show win0_3.index t (0 : Fin 1) * 128 + 1 * j.val = j.val; omega

/-- The second weight matrix's block at every point is the whole matrix. -/
theorem blk0_4 (c : Dev nD) (t : Fin cfg0.N) (k : Fin 128) (j : Fin 128) :
    (Gen.iblk0 (F := Ideal) V c 4 t : S128x128.Idx → EReal) (ix2 k j) = (V c main_v29 : S128x128.Idx → EReal) (ix2 k j) := by
  obtain ⟨-, -, -, -, -, -, -, e40, e41, -⟩ := idx_facts0 t
  unfold Gen.iblk0
  rw [View.read_apply]
  show (V c main_v29 : S128x128.Idx → EReal) (((cfg0.win 4).blk t).view.emb (ix2 k j)) = _
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega

/-- What point t writes back is block t of the stage's function of the arrays as the region finds them. -/
theorem flushed0_eq (c : Dev nD) (t : Fin cfg0.N) :
    (Gen.dat0 (F := Ideal) V c).flushed 5 t
      = ((cfg0.win 5).blk t).view.read (Elt Ideal) (Cert.Spec.sageArr (V c main_v27) (V c main_v12) (V c main_v28) (V c main_arg3) (V c main_v29)) := by
  show (cfg0.win 5).cut (grid0.coords t) ((Gen.dat0 (F := Ideal) V c).after 5 t) = _
  rw [Gen.after0_5]
  have hN : cfg0.N = 25 := Gen.N_0
  have ht : t.val < 25 := hN ▸ t.isLt
  obtain ⟨-, -, -, -, -, -, -, -, -, e50, e51⟩ := idx_facts0 t
  refine funext fun (y : S2000x128.Idx) => ?_
  obtain ⟨r, j, rfl⟩ : ∃ (r : Fin 2000) (j : Fin 128), y = ix2 r j := ⟨y 0, y 1, eq_ix2 y⟩
  have hemb : ((cfg0.win 5).blk t).view.emb (ix2 r j) = (ix2 (⟨t.val * 2000 + r.val, by omega⟩ : Fin 50000) j : S50000x128.Idx) := by
    funext a; apply Fin.ext
    match a with
    | ⟨0, _⟩ => show win0_5.index t (0 : Fin 2) * 2000 + 1 * r.val = t.val * 2000 + r.val; omega
    | ⟨1, _⟩ => show win0_5.index t (1 : Fin 2) * 128 + 1 * j.val = j.val; omega
  rw [View.read_apply, hemb]
  exact (out0_apply (Gen.iblk0 (F := Ideal) V c 0 t) (Gen.iblk0 (F := Ideal) V c 1 t) (Gen.iblk0 (F := Ideal) V c 2 t)
      (Gen.iblk0 (F := Ideal) V c 3 t) (Gen.iblk0 (F := Ideal) V c 4 t) r j).trans
    (sage_entry (V c main_v27) (V c main_v12) (V c main_v28) (V c main_arg3) (V c main_v29)
      (Gen.iblk0 (F := Ideal) V c 0 t) (Gen.iblk0 (F := Ideal) V c 1 t) (Gen.iblk0 (F := Ideal) V c 2 t)
      (Gen.iblk0 (F := Ideal) V c 3 t) (Gen.iblk0 (F := Ideal) V c 4 t)
      (⟨t.val * 2000 + r.val, by omega⟩ : Fin 50000) r j
      (fun k => blk0_0 V c t r k ⟨t.val * 2000 + r.val, by omega⟩ rfl)
      (fun k => blk0_1 V c t r k ⟨t.val * 2000 + r.val, by omega⟩ rfl)
      (fun k => blk0_2 V c t k j) (blk0_3 V c t j) (fun k => blk0_4 V c t k j))

/-- An index of the result array is in point t's block iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v30).slice (win0_5.rect t)).set ↔ _
  rw [View.set_slice_whole, Rect.mem_set_unit]
  exact Iff.rfl

/-- Every index of the result array is in the block of the point its row divided by 2000 names. -/
theorem cover0 (i : S50000x128.Idx) :
    ∃ t : Fin cfg0.N, (cfg0.win 5).flush t = true ∧ i ∈ ((cfg0.win 5).blk t).view.set := by
  have hN : cfg0.N = 25 := Gen.N_0
  have hi0 : (i 0).val < 50000 := idx2_lt0 i
  have hi1 : (i 1).val < 128 := idx2_lt1 i
  have hlt : (i 0).val / 2000 < cfg0.N := by rw [hN]; omega
  obtain ⟨-, -, -, -, -, -, -, -, -, e50, e51⟩ := idx_facts0 ⟨(i 0).val / 2000, hlt⟩
  have e50' : win0_5.index ⟨(i 0).val / 2000, hlt⟩ (0 : Fin 2) = (i 0).val / 2000 := e50
  refine ⟨⟨(i 0).val / 2000, hlt⟩, Gen.flush0_5 _, ?_⟩
  rw [mem_blk0]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    omega
  | ⟨1, _⟩ =>
    show win0_5.index ⟨(i 0).val / 2000, hlt⟩ (1 : Fin 2) * 128 ≤ (i 1).val ∧ (i 1).val < win0_5.index ⟨(i 0).val / 2000, hlt⟩ (1 : Fin 2) * 128 + 128
    omega

/-- The result array after the region: the stage's function of the arrays as the region finds them. -/
theorem final0 (c : Dev nD) :
    (Gen.dat0 (F := Ideal) V c).arrAt 5 cfg0.N = (Cert.Spec.sageArr (V c main_v27) (V c main_v12) (V c main_v28) (V c main_arg3) (V c main_v29)) :=
  (Gen.dat0 (F := Ideal) V c).arrAt_eq_of_cover 5 _ (fun t _ => flushed0_eq V c t) cover0

end

end Cert.KernelIdeal.SageValue

end
-- ==== Proof.SageFinal1.lean ====
/-
  The second GraphSAGE linear stage, from blocks to the whole array. The grid has 25 points; point t reads rows
  2000·t … 2000·t + 1999 of the aggregate and of the features, the whole of the two weight matrices and of the
  bias, and writes rows 2000·t … 2000·t + 1999 of the result. Entry (r, j) of what point t writes is the stage's
  value at row 2000·t + r and column j of the whole arrays, so each point writes its block of ONE function of the
  arrays; the 25 blocks cover the 50000 rows (row i lies in the block of point i / 2000), so the result array
  ends holding that function.
-/
import Mathlib
import proofs.«130986_j28862180229417_2_alg».proof.Proof.Gen.KernelIdeal.Frame
import proofs.«130986_j28862180229417_2_alg».proof.Proof.Spec
import proofs.«130986_j28862180229417_2_alg».proof.Proof.SagePay
import Idealize.ShloMosaic.Lib.Pipeline.Value
import Idealize.ShloMosaic.Lib.ValueIdx

noncomputable section

namespace Cert.KernelIdeal.SageValue

open Cert.KernelIdeal Cert.KernelIdeal.Gen Idealize.ShloMosaic Idealize.ShloMosaic.ValueIdx Idealize.SL.Sem
open Idealize.ShloMosaic.TcCoe
open Idealize.ShloMosaic.Pipeline (Dat)

/-- The zero offsets of a rank-2 block, as the constant function. -/
theorem hz2_1 : (![0, 0] : Fin 2 → Nat) = fun _ => 0 := funext fun a => by fin_cases a <;> rfl
/-- The zero offset of a rank-1 block, as the constant function. -/
theorem hz1_1 : (![0] : Fin 1 → Nat) = fun _ => 0 := funext fun a => by fin_cases a <;> rfl

/-- The index maps over the grid: the aggregate, feature and result windows are at block row t and block column 0,
    the weight and bias windows at block 0 on every axis. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the body leaves in the result block, at entry (r, j), over any five input blocks. -/
theorem out1_apply (x0 x1 : FVec Ideal S2000x128 .bf16) (x2 : FVec Ideal S128x128 .bf16) (x3 : FVec Ideal S128 .f32)
    (x4 : FVec Ideal S128x128 .bf16) (r : Fin 2000) (j : Fin 128) :
    Gen.out1_5 (F := Ideal) x0 x1 x2 x3 x4 (ix2 r j)
      = max ((∑ k : Fin 128, x0 (ix2 r k) * x2 (ix2 k j)) + x3 (ix1 j) + ∑ k : Fin 128, x1 (ix2 r k) * x4 (ix2 k j)) 0 := by
  unfold Gen.out1_5
  rw [View.canon_unit_zero hz2_1]
  simp only [View.ld_unit_zero (S := S2000x128) hz2_1, View.ld_unit_zero (S := S128x128) hz2_1,
    View.ld_unit_zero (S := S128) hz1_1]
  exact pay1_apply x0 x1 x2 x4 x3 r j

section
variable (V : (c : Dev nD) → (b : Ref sig .tc) → Buf (Elt Ideal) ((c : Thread nD τ).loc b))

/-- The aggregate block of point t at (r, k) is the aggregate at row 2000·t + r. -/
theorem blk1_0 (c : Dev nD) (t : Fin cfg1.N) (r : Fin 2000) (k : Fin 128) (R : Fin 50000) (hR : R.val = t.val * 2000 + r.val) :
    (Gen.iblk1 (F := Ideal) V c 0 t : S2000x128.Idx → EReal) (ix2 r k) = (V c main_v45 : S50000x128.Idx → EReal) (ix2 R k) := by
  obtain ⟨e00, e01, -⟩ := idx_facts1 t
  unfold Gen.iblk1
  rw [View.read_apply]
  show (V c main_v45 : S50000x128.Idx → EReal) (((cfg1.win 0).blk t).view.emb (ix2 r k)) = _
  refine congrArg _ (funext fun a => Fin.ext ?_)
  match a with
  | ⟨0, _⟩ => show win1_0.index t (0 : Fin 2) * 2000 + 1 * r.val = R.val; omega
  | ⟨1, _⟩ => show win1_0.index t (1 : Fin 2) * 128 + 1 * k.val = k.val; omega

/-- The feature block of point t at (r, k) is the features at row 2000·t + r. -/
theorem blk1_1 (c : Dev nD) (t : Fin cfg1.N) (r : Fin 2000) (k : Fin 128) (R : Fin 50000) (hR : R.val = t.val * 2000 + r.val) :
    (Gen.iblk1 (F := Ideal) V c 1 t : S2000x128.Idx → EReal) (ix2 r k) = (V c main_v30 : S50000x128.Idx → EReal) (ix2 R k) := by
  obtain ⟨-, -, e10, e11, -⟩ := idx_facts1 t
  unfold Gen.iblk1
  rw [View.read_apply]
  show (V c main_v30 : S50000x128.Idx → EReal) (((cfg1.win 1).blk t).view.emb (ix2 r k)) = _
  refine congrArg _ (funext fun a => Fin.ext ?_)
  match a with
  | ⟨0, _⟩ => show win1_1.index t (0 : Fin 2) * 2000 + 1 * r.val = R.val; omega
  | ⟨1, _⟩ => show win1_1.index t (1 : Fin 2) * 128 + 1 * k.val = k.val; omega

/-- The first weight matrix's block at every point is the whole matrix. -/
theorem blk1_2 (c : Dev nD) (t : Fin cfg1.N) (k : Fin 128) (j : Fin 128) :
    (Gen.iblk1 (F := Ideal) V c 2 t : S128x128.Idx → EReal) (ix2 k j) = (V c main_v46 : S128x128.Idx → EReal) (ix2 k j) := by
  obtain ⟨-, -, -, -, e20, e21, -⟩ := idx_facts1 t
  unfold Gen.iblk1
  rw [View.read_apply]
  show (V c main_v46 : S128x128.Idx → EReal) (((cfg1.win 2).blk t).view.emb (ix2 k j)) = _
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * j.val = j.val; omega

/-- The bias's block at every point is the whole bias. -/
theorem blk1_3 (c : Dev nD) (t : Fin cfg1.N) (j : Fin 128) :
    (Gen.iblk1 (F := Ideal) V c 3 t : S128.Idx → EReal) (ix1 j) = (V c main_arg6 : S128.Idx → EReal) (ix1 j) := by
  obtain ⟨-, -, -, -, -, -, e30, -⟩ := idx_facts1 t
  unfold Gen.iblk1
  rw [View.read_apply]
  show (V c main_arg6 : S128.Idx → EReal) (((cfg1.win 3).blk t).view.emb (ix1 j)) = _
  refine congrArg _ (funext fun a => Fin.ext ?_)
  match a with
  | ⟨0, _⟩ => show win1_3.index t (0 : Fin 1) * 128 + 1 * j.val = j.val; omega

/-- The second weight matrix's block at every point is the whole matrix. -/
theorem blk1_4 (c : Dev nD) (t : Fin cfg1.N) (k : Fin 128) (j : Fin 128) :
    (Gen.iblk1 (F := Ideal) V c 4 t : S128x128.Idx → EReal) (ix2 k j) = (V c main_v47 : S128x128.Idx → EReal) (ix2 k j) := by
  obtain ⟨-, -, -, -, -, -, -, e40, e41, -⟩ := idx_facts1 t
  unfold Gen.iblk1
  rw [View.read_apply]
  show (V c main_v47 : S128x128.Idx → EReal) (((cfg1.win 4).blk t).view.emb (ix2 k j)) = _
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * j.val = j.val; omega

/-- What point t writes back is block t of the stage's function of the arrays as the region finds them. -/
theorem flushed1_eq (c : Dev nD) (t : Fin cfg1.N) :
    (Gen.dat1 (F := Ideal) V c).flushed 5 t
      = ((cfg1.win 5).blk t).view.read (Elt Ideal) (Cert.Spec.sageArr (V c main_v45) (V c main_v30) (V c main_v46) (V c main_arg6) (V c main_v47)) := by
  show (cfg1.win 5).cut (grid1.coords t) ((Gen.dat1 (F := Ideal) V c).after 5 t) = _
  rw [Gen.after1_5]
  have hN : cfg1.N = 25 := Gen.N_1
  have ht : t.val < 25 := hN ▸ t.isLt
  obtain ⟨-, -, -, -, -, -, -, -, -, e50, e51⟩ := idx_facts1 t
  refine funext fun (y : S2000x128.Idx) => ?_
  obtain ⟨r, j, rfl⟩ : ∃ (r : Fin 2000) (j : Fin 128), y = ix2 r j := ⟨y 0, y 1, eq_ix2 y⟩
  have hemb : ((cfg1.win 5).blk t).view.emb (ix2 r j) = (ix2 (⟨t.val * 2000 + r.val, by omega⟩ : Fin 50000) j : S50000x128.Idx) := by
    funext a; apply Fin.ext
    match a with
    | ⟨0, _⟩ => show win1_5.index t (0 : Fin 2) * 2000 + 1 * r.val = t.val * 2000 + r.val; omega
    | ⟨1, _⟩ => show win1_5.index t (1 : Fin 2) * 128 + 1 * j.val = j.val; omega
  rw [View.read_apply, hemb]
  exact (out1_apply (Gen.iblk1 (F := Ideal) V c 0 t) (Gen.iblk1 (F := Ideal) V c 1 t) (Gen.iblk1 (F := Ideal) V c 2 t)
      (Gen.iblk1 (F := Ideal) V c 3 t) (Gen.iblk1 (F := Ideal) V c 4 t) r j).trans
    (sage_entry (V c main_v45) (V c main_v30) (V c main_v46) (V c main_arg6) (V c main_v47)
      (Gen.iblk1 (F := Ideal) V c 0 t) (Gen.iblk1 (F := Ideal) V c 1 t) (Gen.iblk1 (F := Ideal) V c 2 t)
      (Gen.iblk1 (F := Ideal) V c 3 t) (Gen.iblk1 (F := Ideal) V c 4 t)
      (⟨t.val * 2000 + r.val, by omega⟩ : Fin 50000) r j
      (fun k => blk1_0 V c t r k ⟨t.val * 2000 + r.val, by omega⟩ rfl)
      (fun k => blk1_1 V c t r k ⟨t.val * 2000 + r.val, by omega⟩ rfl)
      (fun k => blk1_2 V c t k j) (blk1_3 V c t j) (fun k => blk1_4 V c t k j))

/-- An index of the result array is in point t's block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v48).slice (win1_5.rect t)).set ↔ _
  rw [View.set_slice_whole, Rect.mem_set_unit]
  exact Iff.rfl

/-- Every index of the result array is in the block of the point its row divided by 2000 names. -/
theorem cover1 (i : S50000x128.Idx) :
    ∃ t : Fin cfg1.N, (cfg1.win 5).flush t = true ∧ i ∈ ((cfg1.win 5).blk t).view.set := by
  have hN : cfg1.N = 25 := Gen.N_1
  have hi0 : (i 0).val < 50000 := idx2_lt0 i
  have hi1 : (i 1).val < 128 := idx2_lt1 i
  have hlt : (i 0).val / 2000 < cfg1.N := by rw [hN]; omega
  obtain ⟨-, -, -, -, -, -, -, -, -, e50, e51⟩ := idx_facts1 ⟨(i 0).val / 2000, hlt⟩
  have e50' : win1_5.index ⟨(i 0).val / 2000, hlt⟩ (0 : Fin 2) = (i 0).val / 2000 := e50
  refine ⟨⟨(i 0).val / 2000, hlt⟩, Gen.flush1_5 _, ?_⟩
  rw [mem_blk1]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    omega
  | ⟨1, _⟩ =>
    show win1_5.index ⟨(i 0).val / 2000, hlt⟩ (1 : Fin 2) * 128 ≤ (i 1).val ∧ (i 1).val < win1_5.index ⟨(i 0).val / 2000, hlt⟩ (1 : Fin 2) * 128 + 128
    omega

/-- The result array after the region: the stage's function of the arrays as the region finds them. -/
theorem final1 (c : Dev nD) :
    (Gen.dat1 (F := Ideal) V c).arrAt 5 cfg1.N = (Cert.Spec.sageArr (V c main_v45) (V c main_v30) (V c main_v46) (V c main_arg6) (V c main_v47)) :=
  (Gen.dat1 (F := Ideal) V c).arrAt_eq_of_cover 5 _ (fun t _ => flushed1_eq V c t) cover1

end

end Cert.KernelIdeal.SageValue

end
-- ==== Proof.LibDotE.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDotE

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDotE
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.EdgePay.lean ====
/-
  The edge scorer's block payload read at a row.

  For a block of 6400 edges the kernel forms the hidden pre-activation as two matrix products (source rows by the upper
  half of the weight, destination rows by the lower half) plus a bias row, clamps it at zero, multiplies by the output
  weight row and sums the 256 hidden units of each edge, then adds the output bias. Read at row r over the extended
  reals this is  ∑ k, max ((∑ q, x0 (r,q) * x2 (q,k)) + (∑ q, x1 (r,q) * x3 (q,k)) + x4 k) 0 * x5 k  +  x6 0.
-/
import proofs.«130986_j28862180229417_2_alg».proof.Proof.Gen.KernelIdeal.Skeleton
import proofs.«130986_j28862180229417_2_alg».proof.Proof.LibDotE
import proofs.«130986_j28862180229417_2_alg».proof.Proof.LibRowSum
import proofs.«130986_j28862180229417_2_alg».proof.Proof.LibColumn
import Idealize.ShloMosaic.Lib.ValueLayout

namespace Cert.KernelIdeal.EdgeValue

open Cert.KernelIdeal Cert.KernelIdeal.Gen Idealize.ShloMosaic Idealize.ShloMosaic.ValueIdx Idealize.SL.Sem

/-- The edge scorer's two products contract axis 1 of a [6400, 128] block with axis 0 of a [128, 256] weight. -/
theorem plain_dot : Cert.LibDotE.Plain dot_S6400x128_S128x256_S6400x256_1_0_0_1_n_n where
  hrank := rfl
  hs := rfl
  hl0 := fun j k => by
    unfold DotDims.lhsIdx
    rw [dif_neg (show ¬(0 : Fin S6400x128.rank) ∈ dot_S6400x128_S128x256_S6400x256_1_0_0_1_n_n.lhsBatch by decide),
      dif_pos (show (0 : Fin S6400x128.rank) ∈ dot_S6400x128_S128x256_S6400x256_1_0_0_1_n_n.lhsNonContracting by decide)]
    rfl
  hl1 := fun j k => dot_S6400x128_S128x256_S6400x256_1_0_0_1_n_n.lhsIdx_val_of_single rfl j k
  hr0 := fun j k => dot_S6400x128_S128x256_S6400x256_1_0_0_1_n_n.rhsIdx_val_of_single rfl j k
  hr1 := fun j k => by
    unfold DotDims.rhsIdx
    rw [dif_neg (show ¬(1 : Fin S128x256.rank) ∈ dot_S6400x128_S128x256_S6400x256_1_0_0_1_n_n.rhsBatch by decide),
      dif_pos (show (1 : Fin S128x256.rank) ∈ dot_S6400x128_S128x256_S6400x256_1_0_0_1_n_n.rhsNonContracting by decide)]
    rfl

/-- A product of a row block with a weight into the zero accumulator, at entry (r, k). -/
theorem prod_apply (a : FVec Ideal S6400x128 .bf16) (b : FVec Ideal S128x256 .bf16)
    (h1 : S6400x128.ShapeCasts S6400x128) (h2 : S128x256.ShapeCasts S128x256) (r : Fin 6400) (k : Fin 256) :
    matmul dot_S6400x128_S128x256_S6400x256_1_0_0_1_n_n none (shapeCast S6400x128 a h1) (shapeCast S128x256 b h2)
        (constant (F := Ideal) S6400x256 .f32 0x00000000#32) (ix2 r k)
      = ∑ q : Fin 128, a (ix2 r q) * b (ix2 q k) := by
  rw [shapeCast_self, shapeCast_self]
  exact Cert.LibDotE.matmul_ix2 plain_dot none a b r k

/-- A row of 256 numbers laid along every one of the 6400 rows, at entry (r, k). -/
theorem row_apply (v : FVec Ideal S256 .f32) (h : S256.ShapeCasts S1x256) (h' : S1x256.Broadcasts S6400x256)
    (r : Fin 6400) (k : Fin 256) :
    broadcastTo S6400x256 (shapeCast S1x256 v h) h' (ix2 r k) = v (ix1 k) :=
  (broadcastTo_1b_ab_apply (shapeCast S1x256 v h) h' r k).trans (shapeCast_a_1a_apply v h 0 k)

/-- The one output bias laid along the 6400 rows of a column, at entry (r, 0). -/
theorem bias_apply (v : FVec Ideal S1 .f32) (h : S1.ShapeCasts S1x1) (h' : S1x1.Broadcasts S6400x1) (r : Fin 6400) :
    broadcastTo S6400x1 (shapeCast S1x1 v h) h' (ix2 r (0 : Fin 1)) = v (ix1 0) :=
  (broadcastTo_1b_ab_apply (shapeCast S1x1 v h) h' r 0).trans (shapeCast_a_1a_apply v h 0 0)

/-- The edge scorer's payload at row r. -/
theorem pay2_apply (x0 x1 : FVec Ideal S6400x128 .bf16) (x2 x3 : FVec Ideal S128x256 .bf16) (x4 x5 : FVec Ideal S256 .f32)
    (x6 : FVec Ideal S1 .f32) (r : Fin 6400) :
    Gen.k2_pay1 (F := Ideal) x0 x1 x2 x3 x4 x5 x6 (ix2 r 0)
      = (∑ k : Fin 256, max ((∑ q : Fin 128, x0 (ix2 r q) * x2 (ix2 q k)) + (∑ q : Fin 128, x1 (ix2 r q) * x3 (ix2 q k))
          + x4 (ix1 k)) 0 * x5 (ix1 k)) + x6 (ix1 0) := by
  unfold Gen.k2_pay1
  refine (addf_apply _ _ _).trans (congrArg₂ (· + ·) ?_ (bias_apply x6 _ _ r))
  refine (shapeCast_a_a1_apply _ _ r 0).trans ?_
  refine (multiReduction_add_rows_apply _ _ _ _ r).trans (Finset.sum_congr rfl fun k _ => ?_)
  refine (mulf_apply _ _ _).trans (congrArg₂ (· * ·) ?_ ?_)
  · refine (maximumf_apply _ _ _).trans (congrArg₂ max ?_ Ideal.ofBits_zero_f32)
    refine (addf_apply _ _ _).trans (congrArg₂ (· + ·) ?_ (row_apply x4 _ _ r k))
    exact (addf_apply _ _ _).trans (congrArg₂ (· + ·) (prod_apply x0 x2 _ _ r k) (prod_apply x1 x3 _ _ r k))
  · exact (row_apply _ _ _ r k).trans (congrFun (shapeCast_self x5 _) (ix1 k))

end Cert.KernelIdeal.EdgeValue
-- ==== Proof.EdgeFinal.lean ====
/-
  From the edge scorer's blocks to its result array.

  The region runs over 125 points; point t reads rows 6400 t … 6400 t + 6399 of the two edge-feature arrays and the
  whole of each weight and bias array, and writes back rows 6400 t … 6400 t + 6399 of the [800000, 1] result. Row r
  of what point t writes back is the edge scorer at edge 6400 t + r of the arrays the region finds, and every edge e
  lies in the block of point e / 6400, so after the last point the result array is the edge scorer of those arrays.
-/
import proofs.«130986_j28862180229417_2_alg».proof.Proof.Gen.KernelIdeal.Frame
import proofs.«130986_j28862180229417_2_alg».proof.Proof.Spec
import proofs.«130986_j28862180229417_2_alg».proof.Proof.EdgePay
import Idealize.ShloMosaic.Lib.Pipeline.Value

noncomputable section

namespace Cert.KernelIdeal.EdgeValue

open Cert.KernelIdeal Cert.KernelIdeal.Gen Idealize.ShloMosaic Idealize.ShloMosaic.ValueIdx Idealize.SL.Sem
open Idealize.ShloMosaic.TcCoe
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the two row windows and the result window sit at block t of the
    rows and block 0 of the columns; every weight and bias window sits at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0 ∧ win2_5.index t (0 : Fin 1) = 0 ∧ win2_6.index t (0 : Fin 1) = 0
    ∧ win2_7.index t (0 : Fin 2) = t.val ∧ win2_7.index t (1 : Fin 2) = 0 :=
  (by decide +kernel : ∀ t : Fin grid2.N, _)

/-- The payload of a block whose input blocks are rows of the arrays, at row r, is the edge scorer at edge e. -/
theorem block_row (x0 x1 : FVec Ideal S6400x128 .bf16) (x2 x3 : FVec Ideal S128x256 .bf16) (x4 x5 : FVec Ideal S256 .f32)
    (x6 : FVec Ideal S1 .f32) (G1 G2 : Cert.Spec.EdgeArr) (Wa Wb : (⟨2, ![128, 256]⟩ : Shape).Idx → EReal)
    (b3 w4 : (⟨1, ![256]⟩ : Shape).Idx → EReal) (b4 : (⟨1, ![1]⟩ : Shape).Idx → EReal) (r : Fin 6400) (e : Fin 800000)
    (h0 : ∀ q : Fin 128, x0 (ix2 r q) = G1 (ix2 e q)) (h1 : ∀ q : Fin 128, x1 (ix2 r q) = G2 (ix2 e q))
    (h2 : x2 = Wa) (h3 : x3 = Wb) (h4 : x4 = b3) (h5 : x5 = w4) (h6 : x6 = b4) :
    Gen.k2_pay1 (F := Ideal) x0 x1 x2 x3 x4 x5 x6 (ix2 r 0) = Cert.Spec.edgeArr G1 G2 Wa Wb b3 w4 b4 (ix2 e 0) := by
  subst h2 h3 h4 h5 h6
  rw [pay2_apply]
  unfold Cert.Spec.edgeArr Cert.Spec.hiddenSplit
  simp only [h0, h1]

theorem flushed_eq (c : Dev nD) (t : Fin cfg2.N) :
    (Gen.dat2 (F := Ideal) V c).flushed 7 t = ((cfg2.win 7).blk t).view.read (Elt Ideal)
      (Cert.Spec.edgeArr (V c main_v55) (V c main_v62) (V c main_v65) (V c main_v66) (V c main_arg9) (V c main_v67) (V c main_arg11)) := by
  show (cfg2.win 7).cut (grid2.coords t) ((Gen.dat2 V c).after 7 t) = _
  rw [Gen.after2_7]
  unfold Gen.out2_7
  rw [View.canon_unit_zero hz2]
  simp only [View.ld_unit_zero (S := S6400x128) hz2, View.ld_unit_zero (S := S128x256) hz2, View.ld_unit_zero (S := S256) hz1, View.ld_unit_zero (S := S1) hz1]
  funext j
  obtain ⟨r, u, rfl⟩ : ∃ (r : Fin 6400) (u : Fin 1), j = ix2 r u := ⟨j 0, j 1, eq_ix2 j⟩
  obtain rfl : u = 0 := Subsingleton.elim _ _
  obtain ⟨e00, e01, e10, e11, e20, e21, e30, e31, e4, e5, e6, e70, e71⟩ := idx_facts t
  have ht : t.val < 125 := lt_of_lt_of_eq t.isLt Gen.N_2
  have hr : r.val < 6400 := r.isLt
  have he : t.val * 6400 + r.val < 800000 := by omega
  show Gen.k2_pay1 (F := Ideal) (iblk2 V c 0 t) (iblk2 V c 1 t) (iblk2 V c 2 t) (iblk2 V c 3 t) (iblk2 V c 4 t) (iblk2 V c 5 t) (iblk2 V c 6 t) (ix2 r 0) = _
  refine (block_row _ _ _ _ _ _ _ (V c main_v55) (V c main_v62) (V c main_v65) (V c main_v66) (V c main_arg9) (V c main_v67)
    (V c main_arg11) r ⟨t.val * 6400 + r.val, he⟩ ?_ ?_ ?_ ?_ ?_ ?_ ?_).trans ?_
  · intro q
    show V c main_v55 (((cfg2.win 0).blk t).view.emb (ix2 r q)) = V c main_v55 (ix2 ⟨t.val * 6400 + r.val, he⟩ q)
    refine congrArg _ (funext fun a => Fin.ext ?_)
    match a with
    | ⟨0, _⟩ => show win2_0.index t (0 : Fin 2) * 6400 + 1 * r.val = t.val * 6400 + r.val; omega
    | ⟨1, _⟩ => show win2_0.index t (1 : Fin 2) * 128 + 1 * q.val = q.val; omega
  · intro q
    show V c main_v62 (((cfg2.win 1).blk t).view.emb (ix2 r q)) = V c main_v62 (ix2 ⟨t.val * 6400 + r.val, he⟩ q)
    refine congrArg _ (funext fun a => Fin.ext ?_)
    match a with
    | ⟨0, _⟩ => show win2_1.index t (0 : Fin 2) * 6400 + 1 * r.val = t.val * 6400 + r.val; omega
    | ⟨1, _⟩ => show win2_1.index t (1 : Fin 2) * 128 + 1 * q.val = q.val; omega
  · funext y
    show V c main_v65 (((cfg2.win 2).blk t).view.emb y) = V c main_v65 y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 256 + 1 * (y 1).val = (y 1).val; omega
  · funext y
    show V c main_v66 (((cfg2.win 3).blk t).view.emb y) = V c main_v66 y
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 256 + 1 * (y 1).val = (y 1).val; omega
  · funext y
    show V c main_arg9 (((cfg2.win 4).blk t).view.emb y) = V c main_arg9 y
    refine congrArg _ (funext fun a => Fin.ext ?_)
    match a with
    | ⟨0, _⟩ => show win2_4.index t (0 : Fin 1) * 256 + 1 * (y 0).val = (y 0).val; omega
  · funext y
    show V c main_v67 (((cfg2.win 5).blk t).view.emb y) = V c main_v67 y
    refine congrArg _ (funext fun a => Fin.ext ?_)
    match a with
    | ⟨0, _⟩ => show win2_5.index t (0 : Fin 1) * 256 + 1 * (y 0).val = (y 0).val; omega
  · funext y
    show V c main_arg11 (((cfg2.win 6).blk t).view.emb y) = V c main_arg11 y
    refine congrArg _ (funext fun a => Fin.ext ?_)
    match a with
    | ⟨0, _⟩ => show win2_6.index t (0 : Fin 1) * 1 + 1 * (y 0).val = (y 0).val; omega
  · show _ = Cert.Spec.edgeArr (V c main_v55) (V c main_v62) (V c main_v65) (V c main_v66) (V c main_arg9) (V c main_v67) (V c main_arg11)
      (((cfg2.win 7).blk t).view.emb (ix2 r 0))
    refine congrArg _ (funext fun a => Fin.ext ?_)
    match a with
    | ⟨0, _⟩ => show t.val * 6400 + r.val = win2_7.index t (0 : Fin 2) * 6400 + 1 * r.val; omega
    | ⟨1, _⟩ => show 0 = win2_7.index t (1 : Fin 2) * 1 + 1 * 0; omega

/-- An edge is in point t's block of the result iff each coordinate is in the block's range on its axis. -/
theorem mem_blk (t : Fin cfg2.N) (i : S800000x1.Idx) :
    i ∈ ((cfg2.win 7).blk t).view.set ↔ ∀ a : Fin 2, win2_7.index t a * S6400x1.size a ≤ (i a).val
      ∧ (i a).val < win2_7.index t a * S6400x1.size a + S6400x1.size a := by
  show i ∈ ((View.whole main_v68).slice (win2_7.rect t)).set ↔ _
  rw [View.set_slice_whole, Rect.mem_set_unit]
  exact Iff.rfl

/-- Every edge is in the block of the point numbered by its row divided by 6400. -/
theorem cover (i : S800000x1.Idx) : ∃ t : Fin cfg2.N, (cfg2.win 7).flush t = true ∧ i ∈ ((cfg2.win 7).blk t).view.set := by
  have hi0 : (i 0).val < 800000 := (i 0).isLt
  have hi1 : (i 1).val < 1 := (i 1).isLt
  have hlt : (i 0).val / 6400 < cfg2.N := lt_of_lt_of_eq (by omega : (i 0).val / 6400 < 125) Gen.N_2.symm
  refine ⟨⟨(i 0).val / 6400, hlt⟩, Gen.flush2_7 _, ?_⟩
  obtain ⟨-, -, -, -, -, -, -, -, -, -, -, e70, e71⟩ := idx_facts ⟨(i 0).val / 6400, hlt⟩
  rw [mem_blk]
  intro a
  match a with
  | ⟨0, _⟩ =>
    show win2_7.index ⟨(i 0).val / 6400, hlt⟩ (0 : Fin 2) * 6400 ≤ (i 0).val
      ∧ (i 0).val < win2_7.index ⟨(i 0).val / 6400, hlt⟩ (0 : Fin 2) * 6400 + 6400
    rw [e70]
    show (i 0).val / 6400 * 6400 ≤ (i 0).val ∧ (i 0).val < (i 0).val / 6400 * 6400 + 6400
    omega
  | ⟨1, _⟩ =>
    show win2_7.index ⟨(i 0).val / 6400, hlt⟩ (1 : Fin 2) * 1 ≤ (i 1).val
      ∧ (i 1).val < win2_7.index ⟨(i 0).val / 6400, hlt⟩ (1 : Fin 2) * 1 + 1
    rw [e71]
    omega

/-- The result array after the edge scorer's region: the edge scorer of the region's input arrays. -/
theorem final2 (c : Dev nD) :
    (Gen.dat2 (F := Ideal) V c).arrAt 7 cfg2.N = Cert.Spec.edgeArr (V c main_v55) (V c main_v62) (V c main_v65) (V c main_v66)
      (V c main_arg9) (V c main_v67) (V c main_arg11) :=
  (Gen.dat2 (F := Ideal) V c).arrAt_eq_of_cover 7 _ (fun t _ => flushed_eq V c t) cover

end Cert.KernelIdeal.EdgeValue

end
-- ==== Proof.RefValue1.lean ====
/-
  The reference program read as the shared specification, on the extended reals.

  Each stage of the reference is read at an index through the imported index-by-index equations and compared with the
  whole-array functions of the specification: the normalised aggregate is the scattered sum divided entry by entry by
  max(count, 1); a SAGE stage is max(Σₖ A(i,k)·Wl(k,j) + b(j) + Σₖ X(i,k)·Wr(k,j), 0); the edge scorer contracts the
  concatenation [h_src | h_dst] with a 256×256 matrix, and a sum over the 256 columns of a row laid out as two halves
  side by side is the sum over the first half (read from h_src against the upper half of the matrix) plus the sum over
  the second half (read from h_dst against the lower half).  The gathers and the scatter sums stay opaque throughout.
-/
import proofs.«130986_j28862180229417_2_alg».proof.Proof.Gen.ReferenceIdeal.Read
import proofs.«130986_j28862180229417_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S256x256, .f32⟩ : BufTy).Contents (Elt Ideal))
  (x9 : (⟨S256, .f32⟩ : BufTy).Contents (Elt Ideal)) (x10 : (⟨S256x1, .f32⟩ : BufTy).Contents (Elt Ideal))
  (x11 : (⟨S1, .f32⟩ : BufTy).Contents (Elt Ideal))

/-! ## The normalised aggregates -/

/-- The first layer's normalised aggregate, entry by entry: the scattered sum over max(count, 1). -/
theorem norm1 (r : Fin 50000) (j : Fin 128) :
    val_main_v22 (F := Ideal) x0 x1 (ix2 r j)
      = Ideal.div (val_main_v13 (F := Ideal) x0 x1 (ix2 r j))
          (max (val_main_v17 (F := Ideal) x1 (ix1 r)) (Ideal.ofBits .f32 0x3F800000#32)) := by
  have e1 : idx_main_v20 (idx_main_v21 (ix2 r j)) = ix1 r :=
    funext fun a => Fin.ext (by match a with | ⟨0, _⟩ => rfl)
  rw [val_main_v22_apply, val_main_v21_apply, val_main_v20_apply, val_main_v19_apply, val_main_v18_apply,
    val_main_cst_3_apply, e1]
  rfl

/-- The second layer's normalised aggregate, entry by entry. -/
theorem norm2 (r : Fin 50000) (j : Fin 128) :
    val_main_v48 (F := Ideal) x0 x1 x2 x3 x4 (ix2 r j)
      = Ideal.div (val_main_v39 (F := Ideal) x0 x1 x2 x3 x4 (ix2 r j))
          (max (val_main_v43 (F := Ideal) x1 (ix1 r)) (Ideal.ofBits .f32 0x3F800000#32)) := by
  have e1 : idx_main_v46 (idx_main_v47 (ix2 r j)) = ix1 r :=
    funext fun a => Fin.ext (by match a with | ⟨0, _⟩ => rfl)
  rw [val_main_v48_apply, val_main_v47_apply, val_main_v46_apply, val_main_v45_apply, val_main_v44_apply,
    val_main_cst_9_apply, e1]
  rfl

/-! ## The two SAGE stages -/

/-- The first stage's output is the specification's SAGE stage of the normalised aggregate and the node features. -/
theorem layer1 :
    val_main_v29 (F := Ideal) x0 x1 x2 x3 x4 = Cert.Spec.sageArr (val_main_v22 (F := Ideal) x0 x1) x0 x2 x3 x4 := by
  funext i
  obtain ⟨r, j, rfl⟩ : ∃ (r : Fin 50000) (j : Fin 128), i = ix2 r j := ⟨i 0, i 1, eq_ix2 i⟩
  have el : ∀ k : Fin 128, lidx_main_v23 (ix2 r j) k = ix2 r k := fun k =>
    funext fun a => Fin.ext (by match a with | ⟨0, _⟩ => rfl | ⟨1, _⟩ => rfl)
  have er : ∀ k : Fin 128, ridx_main_v23 (ix2 r j) k = ix2 k j := fun k =>
    funext fun a => Fin.ext (by match a with | ⟨0, _⟩ => rfl | ⟨1, _⟩ => rfl)
  have el' : ∀ k : Fin 128, lidx_main_v27 (ix2 r j) k = ix2 r k := fun k =>
    funext fun a => Fin.ext (by match a with | ⟨0, _⟩ => rfl | ⟨1, _⟩ => rfl)
  have er' : ∀ k : Fin 128, ridx_main_v27 (ix2 r j) k = ix2 k j := fun k =>
    funext fun a => Fin.ext (by match a with | ⟨0, _⟩ => rfl | ⟨1, _⟩ => rfl)
  have eb : idx_main_v24 (idx_main_v25 (ix2 r j)) = ix1 j :=
    funext fun a => Fin.ext (by match a with | ⟨0, _⟩ => rfl)
  rw [val_main_v29_apply, val_main_v28_apply, val_main_v26_apply, val_main_v23_apply, val_main_v25_apply,
    val_main_v24_apply, val_main_v27_apply, val_main_call0_v0_apply, val_main_call0_cst_apply]
  simp only [el, er, el', er', eb, Ideal.maximumf_def, Ideal.addf_def, Ideal.ofBits_def, Ideal.ofBits_zero_f32]
  rfl

/-- The second stage's output is the SAGE stage of its normalised aggregate and the first stage's output. -/
theorem layer2 :
    val_main_v55 (F := Ideal) x0 x1 x2 x3 x4 x5 x6 x7
      = Cert.Spec.sageArr (val_main_v48 (F := Ideal) x0 x1 x2 x3 x4) (val_main_v29 (F := Ideal) x0 x1 x2 x3 x4) x5 x6 x7 := by
  funext i
  obtain ⟨r, j, rfl⟩ : ∃ (r : Fin 50000) (j : Fin 128), i = ix2 r j := ⟨i 0, i 1, eq_ix2 i⟩
  have el : ∀ k : Fin 128, lidx_main_v49 (ix2 r j) k = ix2 r k := fun k =>
    funext fun a => Fin.ext (by match a with | ⟨0, _⟩ => rfl | ⟨1, _⟩ => rfl)
  have er : ∀ k : Fin 128, ridx_main_v49 (ix2 r j) k = ix2 k j := fun k =>
    funext fun a => Fin.ext (by match a with | ⟨0, _⟩ => rfl | ⟨1, _⟩ => rfl)
  have el' : ∀ k : Fin 128, lidx_main_v53 (ix2 r j) k = ix2 r k := fun k =>
    funext fun a => Fin.ext (by match a with | ⟨0, _⟩ => rfl | ⟨1, _⟩ => rfl)
  have er' : ∀ k : Fin 128, ridx_main_v53 (ix2 r j) k = ix2 k j := fun k =>
    funext fun a => Fin.ext (by match a with | ⟨0, _⟩ => rfl | ⟨1, _⟩ => rfl)
  have eb : idx_main_v50 (idx_main_v51 (ix2 r j)) = ix1 j :=
    funext fun a => Fin.ext (by match a with | ⟨0, _⟩ => rfl)
  rw [val_main_v55_apply, val_main_v54_apply, val_main_v52_apply, val_main_v49_apply, val_main_v51_apply,
    val_main_v50_apply, val_main_v53_apply, val_main_call1_v0_apply, val_main_call1_cst_apply]
  simp only [el, er, el', er', eb, Ideal.maximumf_def, Ideal.addf_def, Ideal.ofBits_def, Ideal.ofBits_zero_f32]
  rfl

end Cert.ReferenceIdeal.RefValue

end
-- ==== Proof.RefValue2.lean ====
/-
  The reference's concatenation of the gathered source and destination rows, read at an index, and the 256-wide
  contraction over it split into its two 128-wide halves: a row of two pieces laid side by side is the first piece
  on its first 128 columns and the second piece, 128 columns earlier, on its last 128; a sum over 256 indices is the
  sum over the first 128 plus the sum over the last 128, so the contraction with a column of the 256×256 matrix is
  the source rows against the matrix's upper half plus the destination rows against its lower half.
-/
import proofs.«130986_j28862180229417_2_alg».proof.Proof.Gen.ReferenceIdeal.Read
import proofs.«130986_j28862180229417_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S256x256, .f32⟩ : BufTy).Contents (Elt Ideal))

/-! ## The concatenation read at an index -/

/-- A row of two 128-wide pieces laid side by side, read in its first half, is the first piece. -/
theorem cat_left (a b : (⟨S800000x128, .f32⟩ : BufTy).Contents (Elt Ideal)) (e : Fin 800000) (q : Fin 128)
    (h : q.val < 256) :
    concatenate S800000x256 1 [⟨S800000x128, a⟩, ⟨S800000x128, b⟩] concatenates_S800000x128_S800000x128_S800000x256_d1
        (ix2 e (⟨q.val, h⟩ : Fin 256)) = a (ix2 e q) :=
  concatenate_pair_apply_left (1 : Fin S800000x256.rank) a b concatenates_S800000x128_S800000x128_S800000x256_d1
    (ix2 e (⟨q.val, h⟩ : Fin 256)) rfl (ix2 e q) (fun c => by match c with | ⟨0, _⟩ => rfl | ⟨1, _⟩ => rfl)

/-- Read in its second half it is the second piece, 128 columns earlier. -/
theorem cat_right (a b : (⟨S800000x128, .f32⟩ : BufTy).Contents (Elt Ideal)) (e : Fin 800000) (q : Fin 128)
    (h : 128 + q.val < 256) :
    concatenate S800000x256 1 [⟨S800000x128, a⟩, ⟨S800000x128, b⟩] concatenates_S800000x128_S800000x128_S800000x256_d1
        (ix2 e (⟨128 + q.val, h⟩ : Fin 256)) = b (ix2 e q) :=
  concatenate_pair_apply_right (1 : Fin S800000x256.rank) a b concatenates_S800000x128_S800000x128_S800000x256_d1
    (ix2 e (⟨128 + q.val, h⟩ : Fin 256)) rfl rfl (ix2 e q)
    (fun c hc => by match c, hc with | ⟨0, _⟩, _ => rfl | ⟨1, _⟩, hc => exact absurd rfl hc)
    (by show q.val + 128 = 128 + q.val; omega)

/-- The edge features' first 128 columns are the source rows … -/
theorem edge_left (e : Fin 800000) (q : Fin 128) (h : q.val < 256) :
    val_main_v70 (F := Ideal) x0 x1 x2 x3 x4 x5 x6 x7 (ix2 e (⟨q.val, h⟩ : Fin 256))
      = val_main_v62 (F := Ideal) x0 x1 x2 x3 x4 x5 x6 x7 (ix2 e q) := by
  unfold val_main_v70
  generalize val_main_v62 (F := Ideal) x0 x1 x2 x3 x4 x5 x6 x7 = a
  generalize val_main_v69 (F := Ideal) x0 x1 x2 x3 x4 x5 x6 x7 = b
  exact cat_left a b e q h

/-- … and the last 128 the destination rows. -/
theorem edge_right (e : Fin 800000) (q : Fin 128) (h : 128 + q.val < 256) :
    val_main_v70 (F := Ideal) x0 x1 x2 x3 x4 x5 x6 x7 (ix2 e (⟨128 + q.val, h⟩ : Fin 256))
      = val_main_v69 (F := Ideal) x0 x1 x2 x3 x4 x5 x6 x7 (ix2 e q) := by
  unfold val_main_v70
  generalize val_main_v62 (F := Ideal) x0 x1 x2 x3 x4 x5 x6 x7 = a
  generalize val_main_v69 (F := Ideal) x0 x1 x2 x3 x4 x5 x6 x7 = b
  exact cat_right a b e q h

/-- The 256-wide contraction of an edge's features with a column of the weight matrix is the source rows against
    the matrix's upper half plus the destination rows against its lower half. -/
theorem hidden_sum (e : Fin 800000) (k : Fin 256) :
    (∑ q : Fin 256, val_main_v70 (F := Ideal) x0 x1 x2 x3 x4 x5 x6 x7 (ix2 e q) * x8 (ix2 q k))
      = (∑ q : Fin 128, val_main_v62 (F := Ideal) x0 x1 x2 x3 x4 x5 x6 x7 (ix2 e q) * Cert.Spec.upperHalf x8 (ix2 q k))
        + ∑ q : Fin 128, val_main_v69 (F := Ideal) x0 x1 x2 x3 x4 x5 x6 x7 (ix2 e q) * Cert.Spec.lowerHalf x8 (ix2 q k) := by
  rw [Cert.Spec.sum_halves]
  simp only [edge_left, edge_right]
  rfl

end Cert.ReferenceIdeal.RefValue

end
-- ==== Proof.RefValue3.lean ====
/-
  The reference's edge scorer read as the specification's: a hidden unit is the rectified sum of the two 128-wide
  contractions (source rows against the upper half of the weight matrix, destination rows against the lower half)
  and the bias; an edge's score is the sum over the 256 hidden units of the unit times its output weight, plus the
  output bias; the result is that [800000, 1] array with its unit axis dropped.
-/
import proofs.«130986_j28862180229417_2_alg».proof.Proof.RefValue2

noncomputable section

namespace Cert.ReferenceIdeal.RefValue

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S256x256, .f32⟩ : BufTy).Contents (Elt Ideal))
  (x9 : (⟨S256, .f32⟩ : BufTy).Contents (Elt Ideal)) (x10 : (⟨S256x1, .f32⟩ : BufTy).Contents (Elt Ideal))
  (x11 : (⟨S1, .f32⟩ : BufTy).Contents (Elt Ideal))

/-! ## A hidden unit -/

/-- A hidden unit of the reference's scorer is the rectified split form of the specification. -/
theorem hidden_at (e : Fin 800000) (k : Fin 256) :
    val_main_v75 (F := Ideal) x0 x1 x2 x3 x4 x5 x6 x7 x8 x9 (ix2 e k)
      = max (Cert.Spec.hiddenSplit (val_main_v62 (F := Ideal) x0 x1 x2 x3 x4 x5 x6 x7)
          (val_main_v69 (F := Ideal) x0 x1 x2 x3 x4 x5 x6 x7) (Cert.Spec.upperHalf x8) (Cert.Spec.lowerHalf x8) x9 e k) 0 := by
  have el' : ∀ q : Fin 256, lidx_main_v71 (ix2 e k) q = ix2 e q := fun q =>
    funext fun a => Fin.ext (by match a with | ⟨0, _⟩ => rfl | ⟨1, _⟩ => rfl)
  have er' : ∀ q : Fin 256, ridx_main_v71 (ix2 e k) q = ix2 q k := fun q =>
    funext fun a => Fin.ext (by match a with | ⟨0, _⟩ => rfl | ⟨1, _⟩ => rfl)
  have eb : idx_main_v72 (idx_main_v73 (ix2 e k)) = ix1 k :=
    funext fun a => Fin.ext (by match a with | ⟨0, _⟩ => rfl)
  rw [val_main_v75_apply, val_main_v74_apply, val_main_v71_apply, val_main_v73_apply, val_main_v72_apply,
    val_main_call2_v0_apply, val_main_call2_cst_apply, eb]
  simp only [el', er']
  rw [hidden_sum, Ideal.maximumf_def, Ideal.addf_def, Ideal.ofBits_def, Ideal.ofBits_zero_f32]
  rfl

/-! ## The edge scorer -/

/-- The reference's score array is the specification's edge scorer of the gathered source and destination rows. -/
theorem scorer :
    val_main_v79 (F := Ideal) x0 x1 x2 x3 x4 x5 x6 x7 x8 x9 x10 x11
      = Cert.Spec.edgeArr (val_main_v62 (F := Ideal) x0 x1 x2 x3 x4 x5 x6 x7) (val_main_v69 (F := Ideal) x0 x1 x2 x3 x4 x5 x6 x7)
          (Cert.Spec.upperHalf x8) (Cert.Spec.lowerHalf x8) x9 (Cert.Spec.column x10) x11 := by
  funext i
  obtain ⟨e, z, rfl⟩ : ∃ (e : Fin 800000) (z : Fin 1), i = ix2 e z := ⟨i 0, i 1, eq_ix2 i⟩
  obtain rfl : z = 0 := Subsingleton.elim _ _
  have el : ∀ k : Fin 256, lidx_main_v76 (ix2 e (0 : Fin 1)) k = ix2 e k := fun k =>
    funext fun a => Fin.ext (by match a with | ⟨0, _⟩ => rfl | ⟨1, _⟩ => rfl)
  have er : ∀ k : Fin 256, ridx_main_v76 (ix2 e (0 : Fin 1)) k = ix2 k (0 : Fin 1) := fun k =>
    funext fun a => Fin.ext (by match a with | ⟨0, _⟩ => rfl | ⟨1, _⟩ => rfl)
  have eb' : idx_main_v77 (idx_main_v78 (ix2 e (0 : Fin 1))) = ix1 (0 : Fin 1) :=
    funext fun a => Fin.ext (by match a with | ⟨0, _⟩ => rfl)
  rw [val_main_v79_apply, val_main_v76_apply, val_main_v78_apply, val_main_v77_apply, eb']
  simp only [el, er, hidden_at]
  rw [Ideal.addf_def]
  rfl

/-- The result is that array with its unit axis dropped. -/
theorem result :
    val_main_v80 (F := Ideal) x0 x1 x2 x3 x4 x5 x6 x7 x8 x9 x10 x11
      = shapeCast S800000 (val_main_v79 (F := Ideal) x0 x1 x2 x3 x4 x5 x6 x7 x8 x9 x10 x11) shapeCasts_S800000x1_S800000 := by
  unfold val_main_v80
  rfl

end Cert.ReferenceIdeal.RefValue

end
-- ==== Proof.RefValue.lean ====
/-
  The reference program read as the shared specification, on the extended reals: the normalised aggregates and the
  two SAGE stages (first module), the concatenation and the split contraction (second), the edge scorer and the
  result (third).
-/
import proofs.«130986_j28862180229417_2_alg».proof.Proof.RefValue1
import proofs.«130986_j28862180229417_2_alg».proof.Proof.RefValue3
-- ==== Proof.LibRecip.lean ====
/-
  Dividing by a quantity against multiplying by its reciprocal taken beforehand, on the extended reals.

  Off zero the quotient x / w IS the product x · (1 / w), at every numerator and at an infinite w too (both are
  x · w⁻¹); only at w = 0 do the two conventions part.  A square is non-negative on the extended reals, the infinities
  included (∞·∞ = (-∞)·(-∞) = ∞), so a non-negative multiple of a square plus a positive offset is positive, hence off
  zero: a Gaussian width k·σ² + ε, a variance plus ε.
-/
import Idealize.ShloMosaic.PureOps.Ideal

namespace Idealize.ShloMosaic.Ideal

/-- x · (1 / w) = x / w for w ≠ 0. -/
theorem mul_div_one (x w : EReal) (hw : w ≠ 0) : x * Ideal.div 1 w = Ideal.div x w := by
  unfold Ideal.div
  rw [if_neg hw, if_neg hw, one_mul]

/-- 0 ≤ s · s on the extended reals. -/
theorem ereal_mul_self_nonneg (s : EReal) : 0 ≤ s * s := by
  induction s using EReal.rec with
  | bot => rw [EReal.bot_mul_bot]; exact le_top
  | coe r => rw [← EReal.coe_mul]; exact EReal.coe_nonneg.mpr (mul_self_nonneg r)
  | top => rw [EReal.top_mul_top]; exact le_top

/-- 0 < k · s² + ε for 0 ≤ k and 0 < ε, whatever the extended real s. -/
theorem scaled_square_add_pos {k ε : EReal} (hk : 0 ≤ k) (hε : 0 < ε) (s : EReal) : 0 < k * (s * s) + ε :=
  lt_of_lt_of_le hε (le_add_of_nonneg_left (EReal.mul_nonneg hk (ereal_mul_self_nonneg s)))

end Idealize.ShloMosaic.Ideal
-- ==== Proof.NormLaw.lean ====
/-
  Scaling by a reciprocal taken beforehand against dividing.

  The kernel program multiplies each row of the summed neighbour features by 1 / max(count, 1), computed once per
  node; the reference divides the row by max(count, 1).  The divisor is at least one, hence not zero, and off zero
  x · (1 / w) and x / w are the same extended real (both are x · w⁻¹, at every x, the infinities included), so the
  two normalised aggregates agree entry by entry with no finiteness asked of the features.
-/
import proofs.«130986_j28862180229417_2_alg».proof.Proof.KHost
import proofs.«130986_j28862180229417_2_alg».proof.Proof.LibRecip
import Idealize.ShloMosaic.Lib.Pipeline.Value
import Idealize.ShloMosaic.Lib.ValueIdx
import Idealize.ShloMosaic.Lib.IdealHost

noncomputable section

namespace Cert.KernelIdeal.NormLaw

open Cert.KernelIdeal Cert.KernelIdeal.Gen Cert.KernelIdeal.KHost
open Idealize.ShloMosaic Idealize.ShloMosaic.ValueIdx

/-- max(number of edges into the node, 1). -/
def maxCnt {F : FTy → Type} [FloatOps F] (dst : (⟨S800000, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32))

/-- The node of an entry of a node-feature array. -/
abbrev nodeOf (i : S50000x128.Idx) : S50000.Idx := fun a => match a with
  | ⟨0, _⟩ => ⟨(i 0).val, (i 0).isLt⟩

/-- A per-node vector laid along the rows of a [50000, 128] array, read at an entry. -/
theorem rowScale_apply {F : FTy → Type} [FloatOps F] (v : (⟨S50000, .f32⟩ : BufTy).Contents (Elt F)) (i : S50000x128.Idx) :
    broadcastInDim S50000x128 ![0, 1] bcast_S50000x1_S50000x128_0_1 (broadcastInDim S50000x1 ![0] bcast_S50000_S50000x1_0 v) i
      = v (nodeOf i) := by
  have h1 : broadcastInDim S50000x128 ![0, 1] bcast_S50000x1_S50000x128_0_1 (broadcastInDim S50000x1 ![0] bcast_S50000_S50000x1_0 v) i
      = broadcastInDim S50000x1 ![0] bcast_S50000_S50000x1_0 v (fun a => match a with
          | ⟨0, _⟩ => ⟨(i 0).val, (i 0).isLt⟩
          | ⟨1, _⟩ => ⟨0, Nat.one_pos⟩) := by
    generalize broadcastInDim S50000x1 ![0] bcast_S50000_S50000x1_0 v = y
    exact broadcastInDim_apply _ bcast_S50000x1_S50000x128_0_1 y i _ (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl])
  rw [h1]
  exact broadcastInDim_apply _ bcast_S50000_S50000x1_0 v _ (nodeOf i) (fun a => match a with
    | ⟨0, _⟩ => by show (i 0).val = if (50000 : Nat) = 1 then 0 else (i 0).val; rw [if_neg (by decide)])

/-- The splat of the word of 1.0 over the nodes reads 1 at every node. -/
theorem ones_apply (j : S50000.Idx) :
    broadcastInDim S50000 ![] bcast_S_S50000 (constant (F := Ideal) S_ .f32 0x3F800000#32) j = (1 : EReal) := by
  have h : broadcastInDim S50000 ![] bcast_S_S50000 (constant (F := Ideal) S_ .f32 0x3F800000#32) j
      = constant (F := Ideal) S_ .f32 0x3F800000#32 (fun a => a.elim0) := by
    generalize constant (F := Ideal) S_ .f32 0x3F800000#32 = y
    exact broadcastInDim_apply _ bcast_S_S50000 y j _ (fun a => a.elim0)
  rw [h]
  exact Ideal.ofBits_one_f32

/-- The divisor is never zero: it is at least one. -/
theorem maxCnt_ne_zero (dst : (⟨S800000, .i32⟩ : BufTy).Contents (Elt Ideal)) (j : S50000.Idx) : maxCnt (F := Ideal) dst j ≠ 0 := by
  unfold maxCnt
  rw [maximumf_apply, ones_apply]
  exact ne_of_gt (lt_of_lt_of_le zero_lt_one (le_max_right _ _))

/-- The reciprocal count is one over that divisor. -/
theorem cinvOf_eq {F : FTy → Type} [FloatOps F] (dst : (⟨S800000, .i32⟩ : BufTy).Contents (Elt F)) :
    cinvOf dst = Host.divf (broadcastInDim S50000 ![] bcast_S_S50000 (constant S_ .f32 0x3F800000#32)) (maxCnt dst) := rfl

/-- The scaled sum is the divided sum. -/
theorem aggK_eq_div (feat : (⟨S50000x128, .bf16⟩ : BufTy).Contents (Elt Ideal)) (src dst : (⟨S800000, .i32⟩ : BufTy).Contents (Elt Ideal)) :
    aggK (F := Ideal) feat src dst (cinvOf dst)
      = Host.divf (aggSum feat src dst)
          (broadcastInDim S50000x128 ![0, 1] bcast_S50000x1_S50000x128_0_1 (broadcastInDim S50000x1 ![0] bcast_S50000_S50000x1_0 (maxCnt dst))) := by
  funext i
  unfold aggK
  rw [truncf_apply, mulf_apply, hostDivf_apply, rowScale_apply, rowScale_apply, cinvOf_eq, hostDivf_apply, ones_apply]
  exact Ideal.mul_div_one _ _ (maxCnt_ne_zero dst (nodeOf i))

end Cert.KernelIdeal.NormLaw

end
-- ==== Proof.Bridge.lean ====
/-
  The kernel program's value is the reference's.

  Layer by layer.  The kernel scales the summed neighbour rows by a reciprocal count where the reference divides by
  the count; the two agree entry by entry because the divisor max(count, 1) is never zero.  With equal normalised
  aggregates the first layers' outputs are one function of the arguments, hence so are the aggregates over them and
  the second layers' outputs, and the rows taken from those by source and by destination.  The scorer's split
  product over the two halves of its weight matrix is the reference's one product over the concatenated rows (a sum
  over 256 indices is the sum of its two halves), the weight slices and the last weight column read entry by entry.
  A change of float format is the identity on extended reals throughout.
-/
import proofs.«130986_j28862180229417_2_alg».proof.Proof.KValue
import proofs.«130986_j28862180229417_2_alg».proof.Proof.NormLaw
import proofs.«130986_j28862180229417_2_alg».proof.Proof.Gen.ReferenceIdeal.Read
import Idealize.ShloMosaic.Lib.Pipeline.Value

noncomputable section

namespace Cert.Bridge

open Idealize.ShloMosaic Idealize.ShloMosaic.ValueIdx
open Cert.KernelIdeal Cert.KernelIdeal.Gen Cert.KernelIdeal.KHost Cert.KernelIdeal.KValue Cert.KernelIdeal.NormLaw

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S256x256, .f32⟩ : BufTy).Contents (Elt Ideal)) (x9 : (⟨S256, .f32⟩ : BufTy).Contents (Elt Ideal)) (x10 : (⟨S256x1, .f32⟩ : BufTy).Contents (Elt Ideal)) (x11 : (⟨S1, .f32⟩ : BufTy).Contents (Elt Ideal))

/-- The first layer's normalised aggregate. -/
theorem agg1 : aggK (F := Ideal) (nar (s := S50000x128) x0) (srcOf x1) (dstOf x1) (cinvOf (dstOf x1))
    = Cert.ReferenceIdeal.Read.val_main_v22 (F := Ideal) x0 x1 := by
  rw [aggK_eq_div]; rfl

/-- The second layer's normalised aggregate, over the first layer's output. -/
theorem agg2 : aggK (F := Ideal) (Cert.ReferenceIdeal.Read.val_main_v29 (F := Ideal) x0 x1 x2 x3 x4) (srcOf x1) (dstOf x1) (cinvOf (dstOf x1))
    = Cert.ReferenceIdeal.Read.val_main_v48 (F := Ideal) x0 x1 x2 x3 x4 := by
  rw [aggK_eq_div]; rfl

/-- The first layer's output. -/
theorem h1_eq (hl1 : Cert.ReferenceIdeal.Read.val_main_v29 (F := Ideal) x0 x1 x2 x3 x4 = Cert.Spec.sageArr (Cert.ReferenceIdeal.Read.val_main_v22 (F := Ideal) x0 x1) x0 x2 x3 x4) : kH1 x0 x1 x2 x3 x4 = Cert.ReferenceIdeal.Read.val_main_v29 (F := Ideal) x0 x1 x2 x3 x4 := by
  unfold kH1; rw [agg1]; exact hl1.symm

/-- The second layer's output. -/
theorem h2_eq (hl1 : Cert.ReferenceIdeal.Read.val_main_v29 (F := Ideal) x0 x1 x2 x3 x4 = Cert.Spec.sageArr (Cert.ReferenceIdeal.Read.val_main_v22 (F := Ideal) x0 x1) x0 x2 x3 x4) (hl2 : Cert.ReferenceIdeal.Read.val_main_v55 (F := Ideal) x0 x1 x2 x3 x4 x5 x6 x7 = Cert.Spec.sageArr (Cert.ReferenceIdeal.Read.val_main_v48 (F := Ideal) x0 x1 x2 x3 x4) (Cert.ReferenceIdeal.Read.val_main_v29 (F := Ideal) x0 x1 x2 x3 x4) x5 x6 x7) : kH2 x0 x1 x2 x3 x4 x5 x6 x7 = Cert.ReferenceIdeal.Read.val_main_v55 (F := Ideal) x0 x1 x2 x3 x4 x5 x6 x7 := by
  unfold kH2; rw [h1_eq x0 x1 x2 x3 x4 hl1, agg2]; exact hl2.symm

/-- The upper weight rows, narrowed, entry by entry. -/
theorem top_eq : topRows (F := Ideal) x8 = Cert.Spec.upperHalf x8 := by
  funext j
  unfold topRows Cert.Spec.upperHalf
  rw [truncf_apply]
  exact extractStridedSlice_apply ![0, 0] x8 slices_S256x256_S128x256_0_0 j _ (fun a => match a with
    | ⟨0, _⟩ => by show (j 0).val = 0 + (j 0).val; omega
    | ⟨1, _⟩ => by show (j 1).val = 0 + (j 1).val; omega)

/-- The lower weight rows, narrowed, entry by entry. -/
theorem bottom_eq : bottomRows (F := Ideal) x8 = Cert.Spec.lowerHalf x8 := by
  funext j
  unfold bottomRows Cert.Spec.lowerHalf
  rw [truncf_apply]
  exact extractStridedSlice_apply ![128, 0] x8 slices_S256x256_S128x256_128_0 j _ (fun a => match a with
    | ⟨0, _⟩ => by show 128 + (j 0).val = 128 + (j 0).val; rfl
    | ⟨1, _⟩ => by show (j 1).val = 0 + (j 1).val; omega)

/-- The last weight column as a vector, entry by entry. -/
theorem col_eq : colVec (F := Ideal) x10 = Cert.Spec.column x10 := by
  funext j
  unfold colVec Cert.Spec.column
  exact shapeCast_apply x10 shapeCasts_S256x1_S256 j _
    (by rewrite [Shape.rowMajor_val_two, Shape.rowMajor_val_one]; have h0 : (j 0).val < 256 := (j 0).isLt; show (j 0).val * 1 + 0 = (j 0).val; omega)

/-- The result vector. -/
theorem out_eq (hl1 : Cert.ReferenceIdeal.Read.val_main_v29 (F := Ideal) x0 x1 x2 x3 x4 = Cert.Spec.sageArr (Cert.ReferenceIdeal.Read.val_main_v22 (F := Ideal) x0 x1) x0 x2 x3 x4) (hl2 : Cert.ReferenceIdeal.Read.val_main_v55 (F := Ideal) x0 x1 x2 x3 x4 x5 x6 x7 = Cert.Spec.sageArr (Cert.ReferenceIdeal.Read.val_main_v48 (F := Ideal) x0 x1 x2 x3 x4) (Cert.ReferenceIdeal.Read.val_main_v29 (F := Ideal) x0 x1 x2 x3 x4) x5 x6 x7) (hsc : Cert.ReferenceIdeal.Read.val_main_v79 (F := Ideal) x0 x1 x2 x3 x4 x5 x6 x7 x8 x9 x10 x11 = Cert.Spec.edgeArr (Cert.ReferenceIdeal.Read.val_main_v62 (F := Ideal) x0 x1 x2 x3 x4 x5 x6 x7) (Cert.ReferenceIdeal.Read.val_main_v69 (F := Ideal) x0 x1 x2 x3 x4 x5 x6 x7) (Cert.Spec.upperHalf x8) (Cert.Spec.lowerHalf x8) x9 (Cert.Spec.column x10) x11) :
    flat (F := Ideal) (kScore x0 x1 x2 x3 x4 x5 x6 x7 x8 x9 x10 x11) = Cert.ReferenceIdeal.Read.val_main_v80 (F := Ideal) x0 x1 x2 x3 x4 x5 x6 x7 x8 x9 x10 x11 := by
  unfold Cert.ReferenceIdeal.Read.val_main_v80
  rw [hsc]
  unfold kScore
  rw [h2_eq x0 x1 x2 x3 x4 x5 x6 x7 hl1 hl2, top_eq, bottom_eq, col_eq]
  rfl

end Cert.Bridge

end
-- ==== Proof.lean ====
/-
  Two GraphSAGE layers and an edge scorer, as three tiled kernels among host gathers and segment sums, against the
  plain array program: equal results on the extended reals.

  Each layer averages, for every node, the feature rows of the nodes with an edge into it (rows gathered by source,
  summed by destination, divided by max(count, 1)) and applies max(agg·Wl + b + x·Wr, 0); the scorer takes, for every
  edge, the second layer's rows of its two end nodes and computes Σₖ max(h_src·W3[:128] + h_dst·W3[128:] + b3, 0)ₖ·W4ₖ + b4.
  The kernel program computes the layers and the scorer in row blocks (2000 nodes, 6400 edges), multiplies by a
  reciprocal count taken beforehand where the reference divides, splits the scorer's 256-wide product into its two
  halves, and narrows float formats on the way; on the extended reals none of this changes a value: a block of rows of
  a matrix product is the product of the block, x·(1/w) = x/w for w ≠ 0 and the divisor is at least one, a sum over
  256 indices is the sum of its two halves, and a change of format is the identity.  No finiteness of the inputs is used.

  The three frames are the generated ones (the reference's is its generated run with the result dropped); the ideal
  pass rewrote nothing, so the kernel's idealization claim is trivial; the value claim joins the kernel program's run,
  its result read boundary by boundary through the three regions, to the reference's generated run.
-/
import proofs.«130986_j28862180229417_2_alg».proof.Defs
import proofs.«130986_j28862180229417_2_alg».proof.Proof.Gen.Kernel
import proofs.«130986_j28862180229417_2_alg».proof.Proof.Gen.Kernel.Frame
import proofs.«130986_j28862180229417_2_alg».proof.Proof.Gen.KernelIdeal
import proofs.«130986_j28862180229417_2_alg».proof.Proof.Gen.KernelIdeal.Frame
import proofs.«130986_j28862180229417_2_alg».proof.Proof.Gen.ReferenceIdeal
import proofs.«130986_j28862180229417_2_alg».proof.Proof.Gen.Pre_finite_inputs
import proofs.«130986_j28862180229417_2_alg».proof.Proof.Gen.ReferenceIdeal.Run
import proofs.«130986_j28862180229417_2_alg».proof.Proof.Gen.ReferenceIdeal.Read
import proofs.«130986_j28862180229417_2_alg».proof.Proof.KRun
import proofs.«130986_j28862180229417_2_alg».proof.Proof.KValue
import proofs.«130986_j28862180229417_2_alg».proof.Proof.SageFinal0
import proofs.«130986_j28862180229417_2_alg».proof.Proof.SageFinal1
import proofs.«130986_j28862180229417_2_alg».proof.Proof.EdgeFinal
import proofs.«130986_j28862180229417_2_alg».proof.Proof.RefValue
import proofs.«130986_j28862180229417_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments the kernel program's result buffer and the reference's end at the same
    array: the kernel's at its last boundary's contents, read back to the arguments region by region, the reference's
    at its composed term, and the two are one function of the arguments. -/
theorem algebraic : Cert.algebraic_KernelIdeal_ReferenceIdeal := by
  intro m ρ m' ρ' _ hagree
  refine ⟨fun c => Cert.KernelIdeal.Gen.W7 m ρ c (Proc.devRef .tc Cert.KernelIdeal.main_v69),
    Cert.KernelIdeal.KRun.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v80_eq, h0, h1, h2, h3, h4, h5, h6, h7, h8, h9, h10, h11]
  exact ((Cert.KernelIdeal.KValue.value m ρ c Cert.KernelIdeal.SageValue.final0 Cert.KernelIdeal.SageValue.final1
      Cert.KernelIdeal.EdgeValue.final2).trans
    (Cert.Bridge.out_eq _ _ _ _ _ _ _ _ _ _ _ _ (Cert.ReferenceIdeal.RefValue.layer1 _ _ _ _ _)
      (Cert.ReferenceIdeal.RefValue.layer2 _ _ _ _ _ _ _ _) (Cert.ReferenceIdeal.RefValue.scorer _ _ _ _ _ _ _ _ _ _ _ _))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
